-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3x1024x1024 : Shape := ⟨3, ![3, 1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_

variable [Facts]

def fn {F : FTy → Type} [FloatOps F] (main_arg0 : FVec F S4x2048x1024 .f32) (main_arg1 : FVec F S4x2048x1024 .f32) (main_arg2 : FVec F S3x1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S3x1024x1024 .f32 := Host.absf main_arg2
  let main_cst_2 : FVec F S_ .f32 := constant S_ .f32 0x7F800000#32
  let main_v10 : FVec F S3x1024x1024 .f32 := broadcastInDim S3x1024x1024 ![] bcast_S_S3x1024x1024 main_cst_2
  let main_v11 : IVec S3x1024x1024 1 := cmpf .olt main_v9 main_v10
  let main_c_3 : IVec S_ 1 := constantI S_ 1 1#1
  let main_v12 : IVec S_ 1 := (fun x v => Host.reduce IntOp.andi x v reducesTo_S3x1024x1024_S_d0_1_2 h_S_) main_v11 main_c_3
  let main_v13 : IVec S_ 1 := andi main_v8 main_v12
  main_v13
-- ==== Kernel.lean ====
abbrev S4x2048x1024 : Shape := ⟨3, ![4, 2048, 1024]⟩
abbrev S3x1024x1024 : Shape := ⟨3, ![3, 1024, 1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S512x1 : Shape := ⟨2, ![512, 1]⟩
abbrev S512x1024 : Shape := ⟨2, ![512, 1024]⟩
abbrev S1x1024x1024 : Shape := ⟨3, ![1, 1024, 1024]⟩
abbrev S1024x1024 : Shape := ⟨2, ![1024, 1024]⟩
abbrev S512x512 : Shape := ⟨2, ![512, 512]⟩
abbrev S512 : Shape := ⟨1, ![512]⟩

abbrev nBuf : Space → Nat
  | .hbm => 5
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S3x1024x1024, .f32⟩
  | .hbm, ⟨3, _⟩ => ⟨S3x1024x1024, .bf16⟩
  | .hbm, ⟨4, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S3x1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1, .f32⟩
  | .local _ .vmem, ⟨9, _⟩ => ⟨S512x1, .f32⟩
  | .local _ .vmem, ⟨10, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_33 : BitVec 32 := 0#32
  let c512_i32_34 : BitVec 32 := 512#32
  let v60 : BitVec 32 := Scalar.muli c0_i32_33 c512_i32_34
  v60
def k0_off1 (c0_i32_33 : BitVec 32) : Fin 3 → Nat :=
  let c0_35 : Index := 0#32
  let c512_i32_34 : BitVec 32 := 512#32
  let v60 : BitVec 32 := Scalar.muli c0_i32_33 c512_i32_34
  let v61 : BitVec 32 := v60
  let v62 : Index := Scalar.indexCast v61
  let c0_36 : Index := 0#32
  ![0, v62.toNat, 0]
def k0_off2 (c0_i32_33 : BitVec 32) : Fin 2 → Nat :=
  let c512_i32_34 : BitVec 32 := 512#32
  let v60 : BitVec 32 := Scalar.muli c0_i32_33 c512_i32_34
  let v61 : BitVec 32 := v60
  let v72 : Index := Scalar.indexCast v61
  let c0_40 : Index := 0#32
  ![v72.toNat, 0]
def k0_mult2 : BitVec 32 :=
  let c1_i32 : BitVec 32 := 1#32
  let c512_i32_45 : BitVec 32 := 512#32
  let v88 : BitVec 32 := Scalar.muli c1_i32 c512_i32_45
  v88
def k0_mult3 : BitVec 32 :=
  let c2_i32 : BitVec 32 := 2#32
  let c512_i32_56 : BitVec 32 := 512#32
  let v116 : BitVec 32 := Scalar.muli c2_i32 c512_i32_56
  v116
def k0_mult4 : BitVec 32 :=
  let c3_i32_67 : BitVec 32 := 3#32
  let c512_i32_68 : BitVec 32 := 512#32
  let v144 : BitVec 32 := Scalar.muli c3_i32_67 c512_i32_68
  v144
def k0_mult5 (i : grid0.Coords) : BitVec 32 :=
  let arg1 : BitVec 32 := BitVec.ofNat 32 (i 1).val
  let c512_i32 : BitVec 32 := 512#32
  let v8 : BitVec 32 := Scalar.muli arg1 c512_i32
  v8
def k0_mult6 (i : grid0.Coords) : BitVec 32 :=
  let arg2 : BitVec 32 := BitVec.ofNat 32 (i 2).val
  let c512_i32_4 : BitVec 32 := 512#32
  let v10 : BitVec 32 := Scalar.muli arg2 c512_i32_4
  v10
def k0_off3 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v12 : Index := Scalar.indexCast v9
  let c0 : Index := 0#32
  ![v12.toNat, 0]
def k0_off4 (i : grid0.Coords) : Fin 2 → Nat :=
  let arg2 : BitVec 32 := BitVec.ofNat 32 (i 2).val
  let c512_i32_4 : BitVec 32 := 512#32
  let v10 : BitVec 32 := Scalar.muli arg2 c512_i32_4
  let v11 : BitVec 32 := v10
  let v14 : Index := Scalar.indexCast v11
  let c0_5 : Index := 0#32
  ![v14.toNat, 0]
def k0_cond3 (i : grid0.Coords) : BitVec 1 :=
  let arg2 : BitVec 32 := BitVec.ofNat 32 (i 2).val
  let c3_i32 : BitVec 32 := 3#32
  let v51 : BitVec 1 := Scalar.cmpi .eq arg2 c3_i32
  let v52 : BitVec 32 := Scalar.extui v51
  let c0_i32_25 : BitVec 32 := 0#32
  let v53 : BitVec 1 := Scalar.cmpi .ne v52 c0_i32_25
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S3x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S3x1024x1024_S1x1024x1024_0_0_0 : ∀ a, (![0, 0, 0] : Fin 3 → Nat) a + S1x1024x1024.size a ≤ S3x1024x1024.size a
  h_S1x1024x1024 : 0 < S1x1024x1024.numel
  shapeCasts_S1x1024x1024_S1024x1024 : S1x1024x1024.ShapeCasts S1024x1024
  inb_S3x1024x1024_S1x1024x1024_1_0_0 : ∀ a, (![1, 0, 0] : Fin 3 → Nat) a + S1x1024x1024.size a ≤ S3x1024x1024.size a
  inb_S3x1024x1024_S1x1024x1024_2_0_0 : ∀ a, (![2, 0, 0] : Fin 3 → Nat) a + S1x1024x1024.size a ≤ S3x1024x1024.size a
  h_S1x512x1024 : 0 < S1x512x1024.numel
  shapeCasts_S1x512x1024_S512x1024 : S1x512x1024.ShapeCasts S512x1024
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  inb_S1x512x1024_S1x512x1024_0_0_0 : ∀ a, (![0, 0, 0] : Fin 3 → Nat) a + S1x512x1024.size a ≤ S1x512x1024.size a
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  k0_mult1_dvd : ∀ i : grid0.Coords, ∀ (k0_h1 : k0_cond1 i = 1#1), 512 ∣ k0_mult1.toNat
  k0_off1_inb : ∀ i : grid0.Coords, ∀ (k0_h1 : k0_cond1 i = 1#1), ∀ (r : Fin 4), ∀ a, (k0_off1 (BitVec.ofNat 32 r.val)) a + S1x512x1024.size a ≤ S1x2048x1024.size a
  k0_off2_inb : ∀ i : grid0.Coords, ∀ (k0_h1 : k0_cond1 i = 1#1), ∀ (r : Fin 4), ∀ a, (k0_off2 (BitVec.ofNat 32 r.val)) a + S512x1024.size a ≤ S2048x1024.size a
  k0_off2_packedbf16 : ∀ i : grid0.Coords, ∀ (k0_h1 : k0_cond1 i = 1#1), ∀ (r : Fin 4), (Rect.unit (s := S2048x1024) (k0_off2 (BitVec.ofNat 32 r.val)) S512x1024.size (k0_off2_inb i k0_h1 r)).PackedRows (EltTy.packing .bf16)
  k0_mult2_dvd : ∀ i : grid0.Coords, ∀ (k0_h1 : k0_cond1 i = 1#1), 512 ∣ k0_mult2.toNat
  k0_mult3_dvd : ∀ i : grid0.Coords, ∀ (k0_h1 : k0_cond1 i = 1#1), 512 ∣ k0_mult3.toNat
  k0_mult4_dvd : ∀ i : grid0.Coords, ∀ (k0_h1 : k0_cond1 i = 1#1), 512 ∣ k0_mult4.toNat
  k0_mult5_dvd : ∀ i : grid0.Coords, 512 ∣ (k0_mult5 i).toNat
  k0_mult6_dvd : ∀ i : grid0.Coords, 512 ∣ (k0_mult6 i).toNat
  k0_off3_inb : ∀ i : grid0.Coords, ∀ a, (k0_off3 i) a + S512x1024.size a ≤ S2048x1024.size a
  k0_off4_inb : ∀ i : grid0.Coords, ∀ a, (k0_off4 i) a + S512x1024.size a ≤ S2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024x1024.size a ≤ S3x1024x1024.size a
  hwx0_2 : ∀ i : grid0.Coords, EltTy.bits .bf16 = 32 ∨ (Rect.block (s := S3x1024x1024) S3x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x2048x1024.size a
  hwx0_3 : ∀ i : grid0.Coords, EltTy.bits .f32 = 32 ∨ (Rect.block (s := S4x2048x1024) S1x512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S3x1024x1024, .f32⟩
  | .hbm, ⟨3, _⟩ => ⟨S1x1024x1024, .f32⟩
  | .hbm, ⟨4, _⟩ => ⟨S1024x1024, .f32⟩
  | .hbm, ⟨5, _⟩ => ⟨S4x2048x1024, .f32⟩
  | .hbm, ⟨6, _⟩ => ⟨S1x1024x1024, .f32⟩
  | .hbm, ⟨7, _⟩ => ⟨S1024x1024, .f32⟩
  | .hbm, ⟨8, _⟩ => ⟨S4x2048x1024, .f32⟩
  | .hbm, ⟨9, _⟩ => ⟨S1x1024x1024, .f32⟩
  | .hbm, ⟨10, _⟩ => ⟨S1024x1024, .f32⟩
  | .hbm, ⟨11, _⟩ => ⟨S4x2048x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  slices_S3x1024x1024_S1x1024x1024_0_0_0 : S3x1024x1024.Slices ![0, 0, 0] S1x1024x1024
  shapeCasts_S1x1024x1024_S1024x1024 : S1x1024x1024.ShapeCasts S1024x1024
  slices_S3x1024x1024_S1x1024x1024_1_0_0 : S3x1024x1024.Slices ![1, 0, 0] S1x1024x1024
  slices_S3x1024x1024_S1x1024x1024_2_0_0 : S3x1024x1024.Slices ![2, 0, 0] S1x1024x1024
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Step.lean ====
import proofs.«138919_j53558242181521_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

/-
  What one grid point leaves in the carried state, as the step's functions of what it loads.

  At every point the body loads a 512-row query tile of the first cache (rows `512·qi …`), a 512-row key tile of
  the second and a value tile of the third (rows `512·ki …`), the running shift, normaliser and weighted sum, and stores
  the new shift, normaliser and weighted sum; at the last key tile it also stores the output tile. Where a key sweep
  starts, the shift, normaliser and weighted sum are first reset (to the large negative start value, 0 and 0) and the
  loads read the reset values.
-/
namespace Cert.Attn

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query tile of a cache at a point: its rows `512·qi … 512·qi + 511`. -/
def qTile (i : grid0.Coords) (xs : Vec F S2048x1024 .bf16) : Vec F S512x1024 .bf16 :=
  View.ld xs (Rect.unit (s := S2048x1024) (k0_off3 i) S512x1024.size (Gen.k0_off3_inb i))

/-- The key (or value) tile of a cache at a point: its rows `512·ki … 512·ki + 511`. -/
def kTile (i : grid0.Coords) (xs : Vec F S2048x1024 .bf16) : Vec F S512x1024 .bf16 :=
  View.ld xs (Rect.unit (s := S2048x1024) (k0_off4 i) S512x1024.size (Gen.k0_off4_inb i))

/-- The shift a point stores, of the caches and the shift it found. -/
def mNew (i : grid0.Coords) (xs0 xs1 : Vec F S2048x1024 .bf16) (m : Vec F S512x1 .f32) : Vec F S512x1 .f32 :=
  k0_pay3 (k0_pay31 (qTile i xs0) (kTile i xs1) m)

/-- The normaliser a point stores. -/
def lNew (i : grid0.Coords) (xs0 xs1 : Vec F S2048x1024 .bf16) (m l : Vec F S512x1 .f32) : Vec F S512x1 .f32 :=
  k0_pay1 (k0_pay34 (qTile i xs0) (kTile i xs1) m m l) (k0_pay35 (qTile i xs0) (kTile i xs1) m)

/-- The weighted sum a point stores. -/
def aNew (i : grid0.Coords) (xs0 xs1 xs2 : Vec F S2048x1024 .bf16) (m : Vec F S512x1 .f32) (acc : Vec F S512x1024 .f32) :
    Vec F S512x1024 .f32 :=
  k0_pay2 (kTile i xs2) (k0_pay32 (qTile i xs0) (kTile i xs1) m m) (k0_pay33 (qTile i xs0) (kTile i xs1) m) acc

/-- The output tile the last key tile's point stores. -/
def oNew (i : grid0.Coords) (xs0 xs1 xs2 : Vec F S2048x1024 .bf16) (m l : Vec F S512x1 .f32) (acc : Vec F S512x1024 .f32) :
    Vec F S1x512x1024 .f32 :=
  k0_pay4 (aNew i xs0 xs1 xs2 m acc) (lNew i xs0 xs1 m l)

/-! ## A point in the middle of a key sweep -/

theorem sout_B_3 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a7 : Memref sig .tc .vmem S2048x1024 .bf16) (h7 : a7.IsWhole) (a8 : Memref sig .tc .vmem S2048x1024 .bf16) (h8 : a8.IsWhole) (a9 : Memref sig .tc .vmem S2048x1024 .bf16) (h9 : a9.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : ¬cond0_0 i) (hc1 : ¬cond0_1 i) (hc2 : ¬cond0_2 i) (x0 : Vec F S1x2048x1024 .f32) (x1 : Vec F S1x2048x1024 .f32) (x2 : Vec F S3x1024x1024 .bf16) (xs0 : Vec F S2048x1024 .bf16) (xs1 : Vec F S2048x1024 .bf16) (xs2 : Vec F S2048x1024 .bf16) (xs3 : Vec F S512x1 .f32) (xs4 : Vec F S512x1 .f32) (xs5 : Vec F S512x1024 .f32) :
    sout0_B_3 c i a3 h3 a4 h4 a5 h5 a6 h6 a7 h7 a8 h8 a9 h9 a10 h10 a11 h11 a12 h12 hc0 hc1 hc2 x0 x1 x2 xs0 xs1 xs2 xs3 xs4 xs5 = mNew i xs0 xs1 xs3 := by
  unfold sout0_B_3
  rw [View.read_writes_eq_canon _ _ _ (scover0_B_3 c i a3 h3 a4 h4 a5 h5 a6 h6 a7 h7 a8 h8 a9 h9 a10 h10 a11 h11 a12 h12 hc0 hc1 hc2 x0 x1 x2 xs0 xs1 xs2 xs3 xs4 xs5)]
  unfold kernelRun0_B
  dsimp only
  sl_unfold_words
  rw [View.canon_unit_zero hz2]
  simp only [View.readAt_eq_ld, h7.read_unread, h8.read_unread, h9.read_unread, h10.read_unread, h11.read_unread, h12.read_unread, View.ld_unit_zero (S := S512x1) hz2, View.ld_unit_zero (S := S512x1024) hz2]
  rfl

theorem sout_B_4 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a7 : Memref sig .tc .vmem S2048x1024 .bf16) (h7 : a7.IsWhole) (a8 : Memref sig .tc .vmem S2048x1024 .bf16) (h8 : a8.IsWhole) (a9 : Memref sig .tc .vmem S2048x1024 .bf16) (h9 : a9.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : ¬cond0_0 i) (hc1 : ¬cond0_1 i) (hc2 : ¬cond0_2 i) (x0 : Vec F S1x2048x1024 .f32) (x1 : Vec F S1x2048x1024 .f32) (x2 : Vec F S3x1024x1024 .bf16) (xs0 : Vec F S2048x1024 .bf16) (xs1 : Vec F S2048x1024 .bf16) (xs2 : Vec F S2048x1024 .bf16) (xs3 : Vec F S512x1 .f32) (xs4 : Vec F S512x1 .f32) (xs5 : Vec F S512x1024 .f32) :
    sout0_B_4 c i a3 h3 a4 h4 a5 h5 a6 h6 a7 h7 a8 h8 a9 h9 a10 h10 a11 h11 a12 h12 hc0 hc1 hc2 x0 x1 x2 xs0 xs1 xs2 xs3 xs4 xs5 = lNew i xs0 xs1 xs3 xs4 := by
  unfold sout0_B_4
  rw [View.read_writes_eq_canon _ _ _ (scover0_B_4 c i a3 h3 a4 h4 a5 h5 a6 h6 a7 h7 a8 h8 a9 h9 a10 h10 a11 h11 a12 h12 hc0 hc1 hc2 x0 x1 x2 xs0 xs1 xs2 xs3 xs4 xs5)]
  unfold kernelRun0_B
  dsimp only
  sl_unfold_words
  rw [View.canon_unit_zero hz2]
  simp only [View.readAt_eq_ld, h7.read_unread, h8.read_unread, h9.read_unread, h10.read_unread, h11.read_unread, h12.read_unread, View.ld_unit_zero (S := S512x1) hz2, View.ld_unit_zero (S := S512x1024) hz2]
  rfl

theorem sout_B_5 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a7 : Memref sig .tc .vmem S2048x1024 .bf16) (h7 : a7.IsWhole) (a8 : Memref sig .tc .vmem S2048x1024 .bf16) (h8 : a8.IsWhole) (a9 : Memref sig .tc .vmem S2048x1024 .bf16) (h9 : a9.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : ¬cond0_0 i) (hc1 : ¬cond0_1 i) (hc2 : ¬cond0_2 i) (x0 : Vec F S1x2048x1024 .f32) (x1 : Vec F S1x2048x1024 .f32) (x2 : Vec F S3x1024x1024 .bf16) (xs0 : Vec F S2048x1024 .bf16) (xs1 : Vec F S2048x1024 .bf16) (xs2 : Vec F S2048x1024 .bf16) (xs3 : Vec F S512x1 .f32) (xs4 : Vec F S512x1 .f32) (xs5 : Vec F S512x1024 .f32) :
    sout0_B_5 c i a3 h3 a4 h4 a5 h5 a6 h6 a7 h7 a8 h8 a9 h9 a10 h10 a11 h11 a12 h12 hc0 hc1 hc2 x0 x1 x2 xs0 xs1 xs2 xs3 xs4 xs5 = aNew i xs0 xs1 xs2 xs3 xs5 := by
  unfold sout0_B_5
  rw [View.read_writes_eq_canon _ _ _ (scover0_B_5 c i a3 h3 a4 h4 a5 h5 a6 h6 a7 h7 a8 h8 a9 h9 a10 h10 a11 h11 a12 h12 hc0 hc1 hc2 x0 x1 x2 xs0 xs1 xs2 xs3 xs4 xs5)]
  unfold kernelRun0_B
  dsimp only
  sl_unfold_words
  rw [View.canon_unit_zero hz2]
  simp only [View.readAt_eq_ld, h7.read_unread, h8.read_unread, h9.read_unread, h10.read_unread, h11.read_unread, h12.read_unread, View.ld_unit_zero (S := S512x1) hz2, View.ld_unit_zero (S := S512x1024) hz2]
  rfl

/-! ## The last point of a key sweep -/

theorem sout_C_3 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a7 : Memref sig .tc .vmem S2048x1024 .bf16) (h7 : a7.IsWhole) (a8 : Memref sig .tc .vmem S2048x1024 .bf16) (h8 : a8.IsWhole) (a9 : Memref sig .tc .vmem S2048x1024 .bf16) (h9 : a9.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : ¬cond0_0 i) (hc1 : ¬cond0_1 i) (hc2 : cond0_2 i) (x0 : Vec F S1x2048x1024 .f32) (x1 : Vec F S1x2048x1024 .f32) (x2 : Vec F S3x1024x1024 .bf16) (xs0 : Vec F S2048x1024 .bf16) (xs1 : Vec F S2048x1024 .bf16) (xs2 : Vec F S2048x1024 .bf16) (xs3 : Vec F S512x1 .f32) (xs4 : Vec F S512x1 .f32) (xs5 : Vec F S512x1024 .f32) :
    sout0_C_3 c i a3 h3 a4 h4 a5 h5 a6 h6 a7 h7 a8 h8 a9 h9 a10 h10 a11 h11 a12 h12 hc0 hc1 hc2 x0 x1 x2 xs0 xs1 xs2 xs3 xs4 xs5 = mNew i xs0 xs1 xs3 := by
  unfold sout0_C_3
  rw [View.read_writes_eq_canon _ _ _ (scover0_C_3 c i a3 h3 a4 h4 a5 h5 a6 h6 a7 h7 a8 h8 a9 h9 a10 h10 a11 h11 a12 h12 hc0 hc1 hc2 x0 x1 x2 xs0 xs1 xs2 xs3 xs4 xs5)]
  unfold kernelRun0_C
  dsimp only
  sl_unfold_words
  rw [View.canon_unit_zero hz2]
  simp only [View.readAt_eq_ld, h7.read_unread, h8.read_unread, h9.read_unread, h10.read_unread, h11.read_unread, h12.read_unread, View.ld_unit_zero (S := S512x1) hz2, View.ld_unit_zero (S := S512x1024) hz2]
  rfl

theorem sout_C_4 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a7 : Memref sig .tc .vmem S2048x1024 .bf16) (h7 : a7.IsWhole) (a8 : Memref sig .tc .vmem S2048x1024 .bf16) (h8 : a8.IsWhole) (a9 : Memref sig .tc .vmem S2048x1024 .bf16) (h9 : a9.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : ¬cond0_0 i) (hc1 : ¬cond0_1 i) (hc2 : cond0_2 i) (x0 : Vec F S1x2048x1024 .f32) (x1 : Vec F S1x2048x1024 .f32) (x2 : Vec F S3x1024x1024 .bf16) (xs0 : Vec F S2048x1024 .bf16) (xs1 : Vec F S2048x1024 .bf16) (xs2 : Vec F S2048x1024 .bf16) (xs3 : Vec F S512x1 .f32) (xs4 : Vec F S512x1 .f32) (xs5 : Vec F S512x1024 .f32) :
    sout0_C_4 c i a3 h3 a4 h4 a5 h5 a6 h6 a7 h7 a8 h8 a9 h9 a10 h10 a11 h11 a12 h12 hc0 hc1 hc2 x0 x1 x2 xs0 xs1 xs2 xs3 xs4 xs5 = lNew i xs0 xs1 xs3 xs4 := by
  unfold sout0_C_4
  rw [View.read_writes_eq_canon _ _ _ (scover0_C_4 c i a3 h3 a4 h4 a5 h5 a6 h6 a7 h7 a8 h8 a9 h9 a10 h10 a11 h11 a12 h12 hc0 hc1 hc2 x0 x1 x2 xs0 xs1 xs2 xs3 xs4 xs5)]
  unfold kernelRun0_C
  dsimp only
  sl_unfold_words
  rw [View.canon_unit_zero hz2]
  simp only [View.readAt_eq_ld, h7.read_unread, h8.read_unread, h9.read_unread, h10.read_unread, h11.read_unread, h12.read_unread, View.ld_unit_zero (S := S512x1) hz2, View.ld_unit_zero (S := S512x1024) hz2]
  rfl

theorem sout_C_5 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a7 : Memref sig .tc .vmem S2048x1024 .bf16) (h7 : a7.IsWhole) (a8 : Memref sig .tc .vmem S2048x1024 .bf16) (h8 : a8.IsWhole) (a9 : Memref sig .tc .vmem S2048x1024 .bf16) (h9 : a9.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : ¬cond0_0 i) (hc1 : ¬cond0_1 i) (hc2 : cond0_2 i) (x0 : Vec F S1x2048x1024 .f32) (x1 : Vec F S1x2048x1024 .f32) (x2 : Vec F S3x1024x1024 .bf16) (xs0 : Vec F S2048x1024 .bf16) (xs1 : Vec F S2048x1024 .bf16) (xs2 : Vec F S2048x1024 .bf16) (xs3 : Vec F S512x1 .f32) (xs4 : Vec F S512x1 .f32) (xs5 : Vec F S512x1024 .f32) :
    sout0_C_5 c i a3 h3 a4 h4 a5 h5 a6 h6 a7 h7 a8 h8 a9 h9 a10 h10 a11 h11 a12 h12 hc0 hc1 hc2 x0 x1 x2 xs0 xs1 xs2 xs3 xs4 xs5 = aNew i xs0 xs1 xs2 xs3 xs5 := by
  unfold sout0_C_5
  rw [View.read_writes_eq_canon _ _ _ (scover0_C_5 c i a3 h3 a4 h4 a5 h5 a6 h6 a7 h7 a8 h8 a9 h9 a10 h10 a11 h11 a12 h12 hc0 hc1 hc2 x0 x1 x2 xs0 xs1 xs2 xs3 xs4 xs5)]
  unfold kernelRun0_C
  dsimp only
  sl_unfold_words
  rw [View.canon_unit_zero hz2]
  simp only [View.readAt_eq_ld, h7.read_unread, h8.read_unread, h9.read_unread, h10.read_unread, h11.read_unread, h12.read_unread, View.ld_unit_zero (S := S512x1) hz2, View.ld_unit_zero (S := S512x1024) hz2]
  rfl

theorem out_C (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a7 : Memref sig .tc .vmem S2048x1024 .bf16) (h7 : a7.IsWhole) (a8 : Memref sig .tc .vmem S2048x1024 .bf16) (h8 : a8.IsWhole) (a9 : Memref sig .tc .vmem S2048x1024 .bf16) (h9 : a9.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : ¬cond0_0 i) (hc1 : ¬cond0_1 i) (hc2 : cond0_2 i) (x0 : Vec F S1x2048x1024 .f32) (x1 : Vec F S1x2048x1024 .f32) (x2 : Vec F S3x1024x1024 .bf16) (xs0 : Vec F S2048x1024 .bf16) (xs1 : Vec F S2048x1024 .bf16) (xs2 : Vec F S2048x1024 .bf16) (xs3 : Vec F S512x1 .f32) (xs4 : Vec F S512x1 .f32) (xs5 : Vec F S512x1024 .f32) :
    out0_C_3 c i a3 h3 a4 h4 a5 h5 a6 h6 a7 h7 a8 h8 a9 h9 a10 h10 a11 h11 a12 h12 hc0 hc1 hc2 x0 x1 x2 xs0 xs1 xs2 xs3 xs4 xs5 = oNew i xs0 xs1 xs2 xs3 xs4 xs5 := by
  unfold out0_C_3
  rw [View.read_writes_eq_canon _ _ _ (cover0_C_3 c i a3 h3 a4 h4 a5 h5 a6 h6 a7 h7 a8 h8 a9 h9 a10 h10 a11 h11 a12 h12 hc0 hc1 hc2 x0 x1 x2 xs0 xs1 xs2 xs3 xs4 xs5)]
  unfold kernelRun0_C
  dsimp only
  sl_unfold_words
  rw [View.canon_unit_zero hz3]
  simp only [View.readCov_unit_zero (S := S512x1) _ hz2, View.readCov_unit_zero (S := S512x1024) _ hz2, View.readAt_eq_ld, h7.read_unread, h8.read_unread, h9.read_unread, h10.read_unread, h11.read_unread, h12.read_unread, View.ld_unit_zero (S := S512x1) hz2, View.ld_unit_zero (S := S512x1024) hz2]
  rfl

/-! ## The first point of a key sweep that does not build the caches -/

theorem sout_D_3 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a7 : Memref sig .tc .vmem S2048x1024 .bf16) (h7 : a7.IsWhole) (a8 : Memref sig .tc .vmem S2048x1024 .bf16) (h8 : a8.IsWhole) (a9 : Memref sig .tc .vmem S2048x1024 .bf16) (h9 : a9.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : ¬cond0_0 i) (hc1 : cond0_1 i) (hc2 : ¬cond0_2 i) (x0 : Vec F S1x2048x1024 .f32) (x1 : Vec F S1x2048x1024 .f32) (x2 : Vec F S3x1024x1024 .bf16) (xs0 : Vec F S2048x1024 .bf16) (xs1 : Vec F S2048x1024 .bf16) (xs2 : Vec F S2048x1024 .bf16) :
    sout0_D_3 c i a3 h3 a4 h4 a5 h5 a6 h6 a7 h7 a8 h8 a9 h9 a10 h10 a11 h11 a12 h12 hc0 hc1 hc2 x0 x1 x2 xs0 xs1 xs2 = mNew i xs0 xs1 k0_pay27 := by
  unfold sout0_D_3
  rw [View.read_writes_eq_canon _ _ _ (scover0_D_3 c i a3 h3 a4 h4 a5 h5 a6 h6 a7 h7 a8 h8 a9 h9 a10 h10 a11 h11 a12 h12 hc0 hc1 hc2 x0 x1 x2 xs0 xs1 xs2)]
  unfold kernelRun0_D
  dsimp only
  sl_unfold_words
  rw [View.canon_cons_unit_zero (S := S512x1) hz2]
  simp only [View.readCov_unit_zero (S := S512x1) _ hz2, View.readCov_unit_zero (S := S512x1024) _ hz2, View.readAt_eq_ld, h7.read_unread, h8.read_unread, h9.read_unread, h10.read_unread, h11.read_unread, h12.read_unread, View.ld_unit_zero (S := S512x1) hz2, View.ld_unit_zero (S := S512x1024) hz2]
  rfl

theorem sout_D_4 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a7 : Memref sig .tc .vmem S2048x1024 .bf16) (h7 : a7.IsWhole) (a8 : Memref sig .tc .vmem S2048x1024 .bf16) (h8 : a8.IsWhole) (a9 : Memref sig .tc .vmem S2048x1024 .bf16) (h9 : a9.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : ¬cond0_0 i) (hc1 : cond0_1 i) (hc2 : ¬cond0_2 i) (x0 : Vec F S1x2048x1024 .f32) (x1 : Vec F S1x2048x1024 .f32) (x2 : Vec F S3x1024x1024 .bf16) (xs0 : Vec F S2048x1024 .bf16) (xs1 : Vec F S2048x1024 .bf16) (xs2 : Vec F S2048x1024 .bf16) :
    sout0_D_4 c i a3 h3 a4 h4 a5 h5 a6 h6 a7 h7 a8 h8 a9 h9 a10 h10 a11 h11 a12 h12 hc0 hc1 hc2 x0 x1 x2 xs0 xs1 xs2 = lNew i xs0 xs1 k0_pay27 k0_pay28 := by
  unfold sout0_D_4
  rw [View.read_writes_eq_canon _ _ _ (scover0_D_4 c i a3 h3 a4 h4 a5 h5 a6 h6 a7 h7 a8 h8 a9 h9 a10 h10 a11 h11 a12 h12 hc0 hc1 hc2 x0 x1 x2 xs0 xs1 xs2)]
  unfold kernelRun0_D
  dsimp only
  sl_unfold_words
  rw [View.canon_cons_unit_zero (S := S512x1) hz2]
  simp only [View.readCov_unit_zero (S := S512x1) _ hz2, View.readCov_unit_zero (S := S512x1024) _ hz2, View.readAt_eq_ld, h7.read_unread, h8.read_unread, h9.read_unread, h10.read_unread, h11.read_unread, h12.read_unread, View.ld_unit_zero (S := S512x1) hz2, View.ld_unit_zero (S := S512x1024) hz2]
  rfl

theorem sout_D_5 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a7 : Memref sig .tc .vmem S2048x1024 .bf16) (h7 : a7.IsWhole) (a8 : Memref sig .tc .vmem S2048x1024 .bf16) (h8 : a8.IsWhole) (a9 : Memref sig .tc .vmem S2048x1024 .bf16) (h9 : a9.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : ¬cond0_0 i) (hc1 : cond0_1 i) (hc2 : ¬cond0_2 i) (x0 : Vec F S1x2048x1024 .f32) (x1 : Vec F S1x2048x1024 .f32) (x2 : Vec F S3x1024x1024 .bf16) (xs0 : Vec F S2048x1024 .bf16) (xs1 : Vec F S2048x1024 .bf16) (xs2 : Vec F S2048x1024 .bf16) :
    sout0_D_5 c i a3 h3 a4 h4 a5 h5 a6 h6 a7 h7 a8 h8 a9 h9 a10 h10 a11 h11 a12 h12 hc0 hc1 hc2 x0 x1 x2 xs0 xs1 xs2 = aNew i xs0 xs1 xs2 k0_pay27 k0_pay29 := by
  unfold sout0_D_5
  rw [View.read_writes_eq_canon _ _ _ (scover0_D_5 c i a3 h3 a4 h4 a5 h5 a6 h6 a7 h7 a8 h8 a9 h9 a10 h10 a11 h11 a12 h12 hc0 hc1 hc2 x0 x1 x2 xs0 xs1 xs2)]
  unfold kernelRun0_D
  dsimp only
  sl_unfold_words
  rw [View.canon_cons_unit_zero (S := S512x1024) hz2]
  simp only [View.readCov_unit_zero (S := S512x1) _ hz2, View.readCov_unit_zero (S := S512x1024) _ hz2, View.readAt_eq_ld, h7.read_unread, h8.read_unread, h9.read_unread, h10.read_unread, h11.read_unread, h12.read_unread, View.ld_unit_zero (S := S512x1) hz2, View.ld_unit_zero (S := S512x1024) hz2]
  rfl

/-! ## The first point of a batch element: the three caches are built first, then the sweep starts -/

theorem sout_A_3 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : cond0_0 i) (hc1 : cond0_1 i) (hc2 : ¬cond0_2 i) (x0 : Vec F S1x2048x1024 .f32) (x1 : Vec F S1x2048x1024 .f32) (x2 : Vec F S3x1024x1024 .bf16) :
    sout0_A_3 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2 = mNew i (sout0_A_0 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2) (sout0_A_1 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2) k0_pay27 := by
  unfold sout0_A_3
  rw [View.read_writes_eq_canon _ _ _ (scover0_A_3 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2)]
  unfold mNew qTile kTile sout0_A_0 sout0_A_1
  unfold kernelRun0_A
  dsimp only
  sl_unfold_words
  rw [View.canon_cons_unit_zero (S := S512x1) hz2]
  simp only [View.readCov_unit_zero (S := S512x1) _ hz2, View.readCov_unit_zero (S := S512x1024) _ hz2, View.readAt_eq_ld, h3.read_unread, h4.read_unread, h5.read_unread, h10.read_unread, h11.read_unread, h12.read_unread, View.ld_unit_zero (S := S512x1) hz2, View.ld_unit_zero (S := S512x1024) hz2]

theorem sout_A_4 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : cond0_0 i) (hc1 : cond0_1 i) (hc2 : ¬cond0_2 i) (x0 : Vec F S1x2048x1024 .f32) (x1 : Vec F S1x2048x1024 .f32) (x2 : Vec F S3x1024x1024 .bf16) :
    sout0_A_4 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2 = lNew i (sout0_A_0 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2) (sout0_A_1 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2) k0_pay27 k0_pay28 := by
  unfold sout0_A_4
  rw [View.read_writes_eq_canon _ _ _ (scover0_A_4 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2)]
  unfold lNew qTile kTile sout0_A_0 sout0_A_1
  unfold kernelRun0_A
  dsimp only
  sl_unfold_words
  rw [View.canon_cons_unit_zero (S := S512x1) hz2]
  simp only [View.readCov_unit_zero (S := S512x1) _ hz2, View.readCov_unit_zero (S := S512x1024) _ hz2, View.readAt_eq_ld, h3.read_unread, h4.read_unread, h5.read_unread, h10.read_unread, h11.read_unread, h12.read_unread, View.ld_unit_zero (S := S512x1) hz2, View.ld_unit_zero (S := S512x1024) hz2]

theorem sout_A_5 (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : cond0_0 i) (hc1 : cond0_1 i) (hc2 : ¬cond0_2 i) (x0 : Vec F S1x2048x1024 .f32) (x1 : Vec F S1x2048x1024 .f32) (x2 : Vec F S3x1024x1024 .bf16) :
    sout0_A_5 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2 = aNew i (sout0_A_0 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2) (sout0_A_1 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2) (sout0_A_2 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2) k0_pay27 k0_pay29 := by
  unfold sout0_A_5
  rw [View.read_writes_eq_canon _ _ _ (scover0_A_5 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2)]
  unfold aNew qTile kTile sout0_A_0 sout0_A_1 sout0_A_2
  unfold kernelRun0_A
  dsimp only
  sl_unfold_words
  rw [View.canon_cons_unit_zero (S := S512x1024) hz2]
  simp only [View.readCov_unit_zero (S := S512x1) _ hz2, View.readCov_unit_zero (S := S512x1024) _ hz2, View.readAt_eq_ld, h3.read_unread, h4.read_unread, h5.read_unread, h10.read_unread, h11.read_unread, h12.read_unread, View.ld_unit_zero (S := S512x1) hz2, View.ld_unit_zero (S := S512x1024) hz2]

end Cert.Attn

end
-- ==== Proof.LibColumn.lean ====
/-
  A column of row values, as a sum along the rows that keeps a unit axis lays it out: a vector of `a` values recast as
  an `[a, 1]` column, and such a column broadcast along its unit axis to an `[a, b]` matrix — each read at an index
  given by its coordinates.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.LibBlockSum.lean ====
/-
  Sums over a range cut into equal blocks, and sums of real numbers among the extended reals.

  A sum over `Fin (A * B)` is the double sum over a block number `a < A` and a position `b < B` inside the block,
  the entry read at `a * B + b`; two such cuts give the three-level form used for rows grouped first by core, then
  by grid step, then by row inside the step's block. The coercion of the reals into the extended reals commutes
  with finite sums, so a sum of 1s and 0s chosen by a predicate is the number of indices where it holds.
-/
import Mathlib.Algebra.BigOperators.Fin
import Mathlib.Algebra.BigOperators.Ring.Finset
import Mathlib.Data.EReal.Basic
import Mathlib.Logic.Equiv.Fin.Basic

namespace Cert.Lib.BlockSum

/-- Position `b` of block `a` lies inside the range. -/
theorem blk_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right _ a.isLt

/-- A sum over `Fin (A * B)` is the sum over blocks of the sums inside each block. -/
theorem sum_fin_blocks {M : Type*} [AddCommMonoid M] (A B : ℕ) (h : Fin (A * B) → M) :
    ∑ x, h x = ∑ a : Fin A, ∑ b : Fin B, h ⟨a.val * B + b.val, blk_lt a b⟩ := by
  rw [← Equiv.sum_comp finProdFinEquiv h, Fintype.sum_prod_type]
  refine Finset.sum_congr rfl fun a _ => Finset.sum_congr rfl fun b _ => congrArg h (Fin.ext ?_)
  show b.val + B * a.val = a.val * B + b.val
  rw [Nat.mul_comm, Nat.add_comm]

/-- The same for a range whose length is given as a number equal to `A * B`. -/
theorem sum_fin_blocks_of_eq {M : Type*} [AddCommMonoid M] {n : ℕ} (A B : ℕ) (hn : A * B = n) (h : Fin n → M) :
    ∑ x, h x = ∑ a : Fin A, ∑ b : Fin B, h ⟨a.val * B + b.val, hn ▸ blk_lt a b⟩ := by
  subst hn
  exact sum_fin_blocks A B h

/-- Row `r` of step `j` of core `p` lies inside the range. -/
theorem row_lt {P J R n : ℕ} (hn : P * J * R = n) (p : Fin P) (j : Fin J) (r : Fin R) :
    (p.val * J + j.val) * R + r.val < n :=
  hn ▸ blk_lt (⟨p.val * J + j.val, blk_lt p j⟩ : Fin (P * J)) r

/-- A sum over `P * J * R` rows, grouped by core `p`, step `j` and row `r` inside the step's block. -/
theorem sum_rows {M : Type*} [AddCommMonoid M] {n : ℕ} (P J R : ℕ) (hn : P * J * R = n) (g : Fin n → M) :
    ∑ x, g x = ∑ p : Fin P, ∑ j : Fin J, ∑ r : Fin R, g ⟨(p.val * J + j.val) * R + r.val, row_lt hn p j r⟩ := by
  rw [sum_fin_blocks_of_eq (P * J) R hn g,
    sum_fin_blocks P J fun t => ∑ r : Fin R, g ⟨t.val * R + r.val, hn ▸ blk_lt t r⟩]

/-- The coercion of the reals into the extended reals commutes with finite sums. -/
theorem coe_sum {ι : Type*} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- A sum of 1s (where `p` holds) and 0s (where it does not), among the extended reals, is the number of indices
    where `p` holds. -/
theorem sum_indicator {ι : Type*} [Fintype ι] (p : ι → Prop) [DecidablePred p] :
    ∑ i, (((if p i then 1 else 0 : ℝ)) : EReal) = (((Finset.univ.filter p).card : ℝ) : EReal) := by
  rw [← coe_sum, Finset.sum_boole]

end Cert.Lib.BlockSum
-- ==== Proof.LibOnlineSoftmax.lean ====
/-
  The streaming form of a softmax-weighted average, on the extended reals.

  A row of scores is consumed block by block (`B` lanes at a time, any `B`). The running state is a shift `m`, a normaliser
  `l` and a weighted sum `a`: a new block raises the shift to at least its largest score, rescales the old
  normaliser and the old weighted sum by `exp (m_old - m_new)`, and adds the block's `exp (s - m_new)` (times the
  values, for `a`). Because `exp (m_old - m_new) * exp (s - m_old) = exp (s - m_new)`, after any number of blocks
  `l = ∑ exp (s - m)` and `a = ∑ exp (s - m) * v` over everything consumed so far, whatever real number the shift
  is; so `a / l = ∑ exp s * v / ∑ exp s`, which is also `∑ (exp (s - c) / ∑ exp (s - c)) * v` for any real `c`:
  the quotient a two-pass softmax computes. All of this needs every score and value to be a real number.
-/
import Idealize.ShloMosaic.PureOps.Ideal
import proofs.«138919_j53558242181521_2_alg».proof.Proof.LibFinite
import proofs.«138919_j53558242181521_2_alg».proof.Proof.LibBlockSum

noncomputable section

namespace Cert.LibStream

open Idealize.ShloMosaic Cert.LibFinite Cert.Lib.BlockSum

variable {B : ℕ}

/-- The running shift after `j` blocks: the start value, raised by each block's largest score (a block's largest
    score is the fold of `max` from `-∞` over its lanes). -/
def mSt (m0 : EReal) (s : ℕ → Fin B → EReal) : ℕ → EReal
  | 0 => m0
  | j + 1 => max (mSt m0 s j) ((Finset.univ : Finset (Fin B)).fold max ⊥ (s j))

/-- The running normaliser after `j` blocks. -/
def lSt (m0 : EReal) (s : ℕ → Fin B → EReal) : ℕ → EReal
  | 0 => 0
  | j + 1 => Ideal.exp (mSt m0 s j - mSt m0 s (j + 1)) * lSt m0 s j + ∑ c : Fin B, Ideal.exp (s j c - mSt m0 s (j + 1))

/-- The running weighted sum after `j` blocks. -/
def aSt (m0 : EReal) (s v : ℕ → Fin B → EReal) : ℕ → EReal
  | 0 => 0
  | j + 1 => Ideal.exp (mSt m0 s j - mSt m0 s (j + 1)) * aSt m0 s v j
      + ∑ c : Fin B, Ideal.exp (s j c - mSt m0 s (j + 1)) * v j c

/-- A fold of `max` from `-∞` over real numbers is `-∞` (no entries) or a real number. -/
theorem fold_max_bot_coe {ι : Type} (S : Finset ι) (f : ι → ℝ) :
    S.fold max (⊥ : EReal) (fun i => (f i : EReal)) = ⊥ ∨ ∃ r : ℝ, S.fold max (⊥ : EReal) (fun i => (f i : EReal)) = (r : EReal) := by
  classical
  induction S using Finset.induction_on with
  | empty => left; exact Finset.fold_empty
  | insert a S ha ih =>
    right
    rw [Finset.fold_insert ha]
    rcases ih with h | ⟨r, h⟩
    · rw [h]; exact ⟨f a, max_bot_right _⟩
    · rw [h]; exact ⟨max (f a) r, (EReal.coe_strictMono.monotone.map_max).symm⟩

/-- The exponential of a difference of two reals is the real exponential. -/
theorem exp_sub_coe (x y : ℝ) : Ideal.exp ((x : EReal) - (y : EReal)) = ((Real.exp (x - y) : ℝ) : EReal) := by
  rw [← EReal.coe_sub]; rfl

section Closed

variable (n : ℝ) (sr vr : ℕ → Fin B → ℝ)

/-- After `J` blocks the state is a real shift `M` with `l = ∑ exp (s - M)` and `a = ∑ exp (s - M) * v` over the
    `J` blocks consumed. -/
theorem closed (J : ℕ) : ∃ M : ℝ,
    mSt (n : EReal) (fun j c => (sr j c : EReal)) J = (M : EReal)
    ∧ lSt (n : EReal) (fun j c => (sr j c : EReal)) J
        = ((∑ j ∈ Finset.range J, ∑ c : Fin B, Real.exp (sr j c - M) : ℝ) : EReal)
    ∧ aSt (n : EReal) (fun j c => (sr j c : EReal)) (fun j c => (vr j c : EReal)) J
        = ((∑ j ∈ Finset.range J, ∑ c : Fin B, Real.exp (sr j c - M) * vr j c : ℝ) : EReal) := by
  induction J with
  | zero => exact ⟨n, rfl, by simp [lSt], by simp [aSt]⟩
  | succ J ih =>
    obtain ⟨M, hm, hl, ha⟩ := ih
    obtain ⟨M', hM'⟩ : ∃ M' : ℝ, mSt (n : EReal) (fun j c => (sr j c : EReal)) (J + 1) = (M' : EReal) := by
      have hstep : mSt (n : EReal) (fun j c => (sr j c : EReal)) (J + 1)
          = max (mSt (n : EReal) (fun j c => (sr j c : EReal)) J) ((Finset.univ : Finset (Fin B)).fold max ⊥ (fun c => (sr J c : EReal))) := rfl
      rw [hstep, hm]
      rcases fold_max_bot_coe (Finset.univ : Finset (Fin B)) (sr J) with h | ⟨r, h⟩
      · rw [h]; exact ⟨M, max_bot_right _⟩
      · rw [h]; exact ⟨max M r, (EReal.coe_strictMono.monotone.map_max).symm⟩
    refine ⟨M', hM', ?_, ?_⟩
    · show Ideal.exp (mSt (n : EReal) (fun j c => (sr j c : EReal)) J - mSt (n : EReal) (fun j c => (sr j c : EReal)) (J + 1))
            * lSt (n : EReal) (fun j c => (sr j c : EReal)) J
          + ∑ c : Fin B, Ideal.exp ((sr J c : EReal) - mSt (n : EReal) (fun j c => (sr j c : EReal)) (J + 1)) = _
      rw [hm, hM', hl, exp_sub_coe]
      simp only [exp_sub_coe]
      rw [← EReal.coe_mul, ← coe_sum, ← EReal.coe_add]
      refine congrArg _ ?_
      rw [Finset.sum_range_succ, Finset.mul_sum]
      refine congrArg (· + _) (Finset.sum_congr rfl fun j _ => ?_)
      rw [Finset.mul_sum]
      refine Finset.sum_congr rfl fun c _ => ?_
      rw [← Real.exp_add]; congr 1; ring
    · show Ideal.exp (mSt (n : EReal) (fun j c => (sr j c : EReal)) J - mSt (n : EReal) (fun j c => (sr j c : EReal)) (J + 1))
            * aSt (n : EReal) (fun j c => (sr j c : EReal)) (fun j c => (vr j c : EReal)) J
          + ∑ c : Fin B, Ideal.exp ((sr J c : EReal) - mSt (n : EReal) (fun j c => (sr j c : EReal)) (J + 1)) * (vr J c : EReal) = _
      rw [hm, hM', ha, exp_sub_coe]
      simp only [exp_sub_coe, ← EReal.coe_mul]
      rw [← coe_sum, ← EReal.coe_add]
      refine congrArg _ ?_
      rw [Finset.sum_range_succ, Finset.mul_sum]
      refine congrArg (· + _) (Finset.sum_congr rfl fun j _ => ?_)
      rw [Finset.mul_sum]
      refine Finset.sum_congr rfl fun c _ => ?_
      rw [← mul_assoc, ← Real.exp_add]; congr 2; ring

end Closed

/-- The quotient of the shifted sums does not depend on the shift: for real scores `s`, values `v` and shifts
    `M`, `c`, `(∑ exp (s - M) * v) / ∑ exp (s - M) = ∑ (exp (s - c) / ∑ exp (s - c)) * v`. -/
theorem shift_free {ι : Type} (S : Finset ι) (hS : S.Nonempty) (s v : ι → ℝ) (M c : ℝ) :
    (∑ i ∈ S, Real.exp (s i - M) * v i) * (1 * (1 / ∑ i ∈ S, Real.exp (s i - M)))
      = ∑ i ∈ S, Real.exp (s i - c) * (1 / ∑ i ∈ S, Real.exp (s i - c)) * v i := by
  have hE : 0 < ∑ i ∈ S, Real.exp (s i) := Finset.sum_pos (fun i _ => Real.exp_pos _) hS
  have hM : ∀ t : ℝ, ∑ i ∈ S, Real.exp (s i - t) = Real.exp (-t) * ∑ i ∈ S, Real.exp (s i) := fun t => by
    rw [Finset.mul_sum]; exact Finset.sum_congr rfl fun i _ => by rw [← Real.exp_add]; congr 1; ring
  have hMv : ∀ t : ℝ, ∑ i ∈ S, Real.exp (s i - t) * v i = Real.exp (-t) * ∑ i ∈ S, Real.exp (s i) * v i := fun t => by
    rw [Finset.mul_sum]; exact Finset.sum_congr rfl fun i _ => by rw [← mul_assoc, ← Real.exp_add]; congr 2; ring
  have hR : ∑ i ∈ S, Real.exp (s i - c) * (1 / ∑ i ∈ S, Real.exp (s i - c)) * v i
      = (1 / ∑ i ∈ S, Real.exp (s i - c)) * ∑ i ∈ S, Real.exp (s i - c) * v i := by
    rw [Finset.mul_sum]; exact Finset.sum_congr rfl fun i _ => by ring
  rw [hR, hMv M, hM M, hMv c, hM c]
  have h1 := hE.ne'
  have h2 := Real.exp_ne_zero (-M)
  have h3 := Real.exp_ne_zero (-c)
  field_simp

section Ratio

variable (n : ℝ) (sr vr : ℕ → Fin B → ℝ)

/-- After at least one block, `a * (1 / l)` is the softmax-weighted sum of the values over the blocks consumed,
    computed with any real shift `x`. -/
theorem ratio [NeZero B] (J : ℕ) (hJ : 0 < J) (x : ℝ) :
    aSt (n : EReal) (fun j c => (sr j c : EReal)) (fun j c => (vr j c : EReal)) J
        * Ideal.div ((1 : ℝ) : EReal) (lSt (n : EReal) (fun j c => (sr j c : EReal)) J)
      = ∑ j ∈ Finset.range J, ∑ c : Fin B,
          Ideal.div (Ideal.exp ((sr j c : EReal) - (x : EReal)))
            (∑ j' ∈ Finset.range J, ∑ c' : Fin B, Ideal.exp ((sr j' c' : EReal) - (x : EReal))) * (vr j c : EReal) := by
  obtain ⟨M, -, hl, ha⟩ := closed n sr vr J
  have hne : (Finset.range J ×ˢ (Finset.univ : Finset (Fin B))).Nonempty :=
    Finset.Nonempty.product (Finset.nonempty_range_iff.mpr hJ.ne') Finset.univ_nonempty
  have hL : ∑ j ∈ Finset.range J, ∑ c : Fin B, Real.exp (sr j c - M)
      = ∑ p ∈ Finset.range J ×ˢ (Finset.univ : Finset (Fin B)), Real.exp (sr p.1 p.2 - M) :=
    (Finset.sum_product' _ _ (fun j c => Real.exp (sr j c - M))).symm
  have hA : ∑ j ∈ Finset.range J, ∑ c : Fin B, Real.exp (sr j c - M) * vr j c
      = ∑ p ∈ Finset.range J ×ˢ (Finset.univ : Finset (Fin B)), Real.exp (sr p.1 p.2 - M) * vr p.1 p.2 :=
    (Finset.sum_product' _ _ (fun j c => Real.exp (sr j c - M) * vr j c)).symm
  have hD : ∑ j ∈ Finset.range J, ∑ c : Fin B, Real.exp (sr j c - x)
      = ∑ p ∈ Finset.range J ×ˢ (Finset.univ : Finset (Fin B)), Real.exp (sr p.1 p.2 - x) :=
    (Finset.sum_product' _ _ (fun j c => Real.exp (sr j c - x))).symm
  have hLpos : 0 < ∑ j ∈ Finset.range J, ∑ c : Fin B, Real.exp (sr j c - M) := by
    rw [hL]; exact Finset.sum_pos (fun i _ => Real.exp_pos _) hne
  have hDpos : 0 < ∑ j ∈ Finset.range J, ∑ c : Fin B, Real.exp (sr j c - x) := by
    rw [hD]; exact Finset.sum_pos (fun i _ => Real.exp_pos _) hne
  have hDe : (∑ j' ∈ Finset.range J, ∑ c' : Fin B, Ideal.exp ((sr j' c' : EReal) - (x : EReal)))
      = ((∑ j ∈ Finset.range J, ∑ c : Fin B, Real.exp (sr j c - x) : ℝ) : EReal) := by
    rw [coe_sum]; refine Finset.sum_congr rfl fun j _ => ?_
    rw [coe_sum]; exact Finset.sum_congr rfl fun c _ => exp_sub_coe _ _
  rw [hl, ha, hDe, Ideal.div_coe hLpos.ne', ← EReal.coe_mul, ← EReal.coe_mul]
  have hterm : ∀ j c, Ideal.div (Ideal.exp ((sr j c : EReal) - (x : EReal)))
        ((∑ j ∈ Finset.range J, ∑ c : Fin B, Real.exp (sr j c - x) : ℝ) : EReal) * (vr j c : EReal)
      = ((Real.exp (sr j c - x) * (1 / ∑ j ∈ Finset.range J, ∑ c : Fin B, Real.exp (sr j c - x)) * vr j c : ℝ) : EReal) := fun j c => by
    rw [Ideal.div_coe hDpos.ne', exp_sub_coe, ← EReal.coe_mul, ← EReal.coe_mul]
  simp only [hterm]
  simp only [← coe_sum]
  refine congrArg _ ?_
  rw [hA, hL, hD, shift_free _ hne (fun p => sr p.1 p.2) (fun p => vr p.1 p.2) M x]
  exact Finset.sum_product' _ _ (fun j c => Real.exp (sr j c - x) * (1 / ∑ p ∈ Finset.range J ×ˢ (Finset.univ : Finset (Fin B)), Real.exp (sr p.1 p.2 - x)) * vr j c)

end Ratio

/-- The streamed state after `J ≥ 1` blocks gives the softmax-weighted sum: for real scores and values, a real start
    shift and any real shift `c`, `a * (1 / l) = ∑ (exp (s - c) / ∑ exp (s - c)) * v` over the `J` blocks. -/
theorem stream_eq_softmax [NeZero B] (m0 c : EReal) (s v : ℕ → Fin B → EReal) (J : ℕ) (hJ : 0 < J) (hm0 : IsFin m0)
    (hc : IsFin c) (hs : ∀ j k, IsFin (s j k)) (hv : ∀ j k, IsFin (v j k)) :
    aSt m0 s v J * Ideal.div ((1 : ℝ) : EReal) (lSt m0 s J)
      = ∑ j ∈ Finset.range J, ∑ b : Fin B,
          Ideal.div (Ideal.exp (s j b - c)) (∑ j' ∈ Finset.range J, ∑ b' : Fin B, Ideal.exp (s j' b' - c)) * v j b := by
  obtain ⟨n, rfl⟩ := hm0
  obtain ⟨x, rfl⟩ := hc
  choose sr hsr using hs
  choose vr hvr using hv
  obtain rfl : s = fun j k => (sr j k : EReal) := funext fun j => funext fun k => hsr j k
  obtain rfl : v = fun j k => (vr j k : EReal) := funext fun j => funext fun k => hvr j k
  exact ratio n sr vr J hJ x

end Cert.LibStream

end
-- ==== Proof.Spec.lean ====
/-
  What the fused attention computes, stated on the argument arrays alone.

  For a batch element `b`: the three projections `x·W₀`, `x·W₁`, `y·W₂` (2048 rows of 1024 each); the score of
  query row `q` against key row `k`, `(∑ o, (x·W₀)[q, o] · (x·W₁)[k, o]) / 32`; and, for a query row, the streamed state
  over its 2048 scores taken as four blocks of 512 (the shift, the normaliser, and per output column the weighted sum of
  the value rows). The result entry (b, q, o) is the weighted sum after the four blocks times the reciprocal of the
  normaliser.
-/
import proofs.«138919_j53558242181521_2_alg».proof.Proof.LibOnlineSoftmax
import Idealize.ShloMosaic.Lib.ValueIdx

noncomputable section

namespace Cert.Attn

open Idealize.ShloMosaic Idealize.ShloMosaic.ValueIdx Cert.LibStream

/-- The shape of `x` and `y`. -/
abbrev SX : Shape := ⟨3, ![4, 2048, 1024]⟩
/-- The shape of the stacked weights. -/
abbrev SK : Shape := ⟨3, ![3, 1024, 1024]⟩

/-- The scale of the scores: the pattern of `2⁻⁵`. -/
abbrev c32 : EReal := Ideal.ofBits .f32 0x3D000000#32

/-- The start value of the shift: a large negative real. -/
abbrev negBig : EReal := Ideal.ofBits .f32 0xFF333332#32

/-- A batch number as an index of the first axis. -/
def bIdx (b : ℕ) : Fin 4 := ⟨b % 4, Nat.mod_lt _ (by norm_num)⟩

/-- Row `c` of block `j` of the 2048 rows. -/
def rowOf (j : ℕ) (c : Fin 512) : Fin 2048 := ⟨(512 * j + c.val) % 2048, Nat.mod_lt _ (by norm_num)⟩

/-- Row `s` of batch element `b` of `x` times weight matrix `w`, at column `o`. -/
def WP (x : SX.Idx → EReal) (k : SK.Idx → EReal) (w : Fin 3) (b : ℕ) (s : Fin 2048) (o : Fin 1024) : EReal :=
  ∑ d : Fin 1024, x (ix3 (bIdx b) s d) * k (ix3 w d o)

/-- The score of query row `q` against key row `kk`. -/
def Sc (x : SX.Idx → EReal) (k : SK.Idx → EReal) (b : ℕ) (q kk : Fin 2048) : EReal :=
  (∑ o : Fin 1024, WP x k 0 b q o * WP x k 1 b kk o) * c32

/-- The scores of query row `q`, block by block. -/
def sBlk (x : SX.Idx → EReal) (k : SK.Idx → EReal) (b : ℕ) (q : Fin 2048) : ℕ → Fin 512 → EReal :=
  fun j c => Sc x k b q (rowOf j c)

/-- Column `o` of the value rows, block by block. -/
def vBlk (y : SX.Idx → EReal) (k : SK.Idx → EReal) (b : ℕ) (o : Fin 1024) : ℕ → Fin 512 → EReal :=
  fun j c => WP y k 2 b (rowOf j c) o

/-- The result array. -/
def G (x y : SX.Idx → EReal) (k : SK.Idx → EReal) (i : SX.Idx) : EReal :=
  aSt negBig (sBlk x k (i 0).val (i 1)) (vBlk y k (i 0).val (i 2)) 4
    * Ideal.div (Ideal.ofBits .f32 0x3F800000#32) (lSt negBig (sBlk x k (i 0).val (i 1)) 4)

end Cert.Attn

end
-- ==== Proof.LibRowOps.lean ====
/-
  General reads at an index, at the ideal values, used by the row-local stages of a network: a matrix product
  accumulated into zero, a column broadcast across the columns, and a select on a strict comparison of two values.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.TileOps.lean ====
/-
  One step of the streamed attention on a tile, read entry by entry at the ideal values.

  A query tile `q` (512 rows of 1024), a key tile `k` and a value tile `v` (512 rows of 1024 each), and the running
  state of the 512 query rows — the shift `m`, the normaliser `l` (one entry per row) and the weighted sum `acc`
  (1024 entries per row). The step forms the 512 × 512 scores `(q kᵀ) / 32`, raises each row's shift to at least the
  row's largest score, rescales the old normaliser and weighted sum by `exp (m_old - m_new)` and adds the tile's
  `exp (score - m_new)`, times the value rows for `acc`. Each quantity is read here at one entry as that formula.
-/
import proofs.«138919_j53558242181521_2_alg».proof.Proof.Gen.KernelIdeal.Skeleton
import proofs.«138919_j53558242181521_2_alg».proof.Proof.LibColumn
import proofs.«138919_j53558242181521_2_alg».proof.Proof.Spec
import proofs.«138919_j53558242181521_2_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

namespace Cert.Attn

open Idealize.ShloMosaic Idealize.ShloMosaic.ValueIdx Cert.KernelIdeal Cert.KernelIdeal.Gen

/-- The score of query row `r` against key row `c` of the tiles. -/
def tScore (q k : S512x1024.Idx → EReal) (r c : Fin 512) : EReal :=
  (∑ o : Fin 1024, q (ix2 r o) * k (ix2 c o)) * c32

/-- The new shift of row `r`. -/
def tMax (q k : S512x1024.Idx → EReal) (m : S512x1.Idx → EReal) (r : Fin 512) : EReal :=
  max (m (ix2 r 0)) ((Finset.univ : Finset (Fin 512)).fold max ⊥ (fun c => tScore q k r c))

/-- The new normaliser of row `r`. -/
def tL (q k : S512x1024.Idx → EReal) (m l : S512x1.Idx → EReal) (r : Fin 512) : EReal :=
  Ideal.exp (m (ix2 r 0) - tMax q k m r) * l (ix2 r 0) + ∑ c : Fin 512, Ideal.exp (tScore q k r c - tMax q k m r)

/-- The new weighted sum of row `r` at column `o`. -/
def tA (q k v : S512x1024.Idx → EReal) (m : S512x1.Idx → EReal) (acc : S512x1024.Idx → EReal) (r : Fin 512) (o : Fin 1024) : EReal :=
  Ideal.exp (m (ix2 r 0) - tMax q k m r) * acc (ix2 r o)
    + ∑ c : Fin 512, Ideal.exp (tScore q k r c - tMax q k m r) * v (ix2 c o)

/-! ## The three matrix products, read at an entry -/

/-- A block of 512 rows times a 1024 × 1024 matrix. -/
theorem mm1_apply (A : FVec Ideal S512x1024 .bf16) (B : FVec Ideal S1024x1024 .bf16) (r : Fin 512) (o : Fin 1024) :
    matmul dot_S512x1024_S1024x1024_S512x1024_1_0_0_1_n_n none A B (constant S512x1024 .f32 0x00000000#32) (ix2 r o)
      = ∑ d : Fin 1024, A (ix2 r d) * B (ix2 d o) := by
  rw [Cert.RowLib.dotDims_eq_plain dot_S512x1024_S1024x1024_S512x1024_1_0_0_1_n_n rfl rfl rfl rfl rfl rfl]
  exact Cert.RowLib.matmul_plain_zero_ix2 none A B r o

/-- The 512 × 512 weights times the 512 value rows. -/
theorem mm3_apply (P : FVec Ideal S512x512 .bf16) (V : FVec Ideal S512x1024 .bf16) (r : Fin 512) (o : Fin 1024) :
    matmul dot_S512x512_S512x1024_S512x1024_1_0_0_1_n_n none P V (constant S512x1024 .f32 0x00000000#32) (ix2 r o)
      = ∑ c : Fin 512, P (ix2 r c) * V (ix2 c o) := by
  rw [Cert.RowLib.dotDims_eq_plain dot_S512x512_S512x1024_S512x1024_1_0_0_1_n_n rfl rfl rfl rfl rfl rfl]
  exact Cert.RowLib.matmul_plain_zero_ix2 none P V r o

/-- Query rows against key rows: both operands contracted along their second axis. -/
theorem mm2_apply (Q K : FVec Ideal S512x1024 .bf16) (r c : Fin 512) :
    matmul dot_S512x1024_S512x1024_S512x512_1_1_0_0_n_n none Q K (constant S512x512 .f32 0x00000000#32) (ix2 r c)
      = ∑ o : Fin 1024, Q (ix2 r o) * K (ix2 c o) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 r c) ((ValueIdx.contrEquiv1 dot_S512x1024_S512x1024_S512x512_1_1_0_0_n_n 1024 rfl rfl).symm k) = ix2 r k := funext fun a => Fin.ext (by
    match a with
    | ⟨0, _⟩ =>
      show (dot_S512x1024_S512x1024_S512x512_1_1_0_0_n_n.lhsIdx _ _ 0).val = r.val
      unfold DotDims.lhsIdx
      rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
      rfl
    | ⟨1, _⟩ => exact (dot_S512x1024_S512x1024_S512x512_1_1_0_0_n_n.lhsIdx_val_of_single rfl _ _).trans hk)
  have er : dot_S512x1024_S512x1024_S512x512_1_1_0_0_n_n.rhsIdx (ix2 r c) ((ValueIdx.contrEquiv1 dot_S512x1024_S512x1024_S512x512_1_1_0_0_n_n 1024 rfl rfl).symm k) = ix2 c k := funext fun a => Fin.ext (by
    match a with
    | ⟨0, _⟩ =>
      show (dot_S512x1024_S512x1024_S512x512_1_1_0_0_n_n.rhsIdx _ _ 0).val = c.val
      unfold DotDims.rhsIdx
      rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
      rfl
    | ⟨1, _⟩ => exact (dot_S512x1024_S512x1024_S512x512_1_1_0_0_n_n.rhsIdx_val_of_single rfl _ _).trans hk)
  rw [el, er]

/-! ## The two lane reductions, read at a row -/

/-- The pattern of `-∞`. -/
theorem ofBits_neg_inf : FloatOps.ofBits (F := Ideal) .f32 0xFF800000#32 = (⊥ : EReal) := by
  simp [Ideal.ofBits, Ideal.ieee]

theorem lift_row (h : S512x512.Reduces [1] S512) (r : Fin 512) (c : Fin (S512x512.size 1)) :
    h.lift (ix1 r) c = ix2 r (c : Fin 512) := funext fun a => Fin.ext (by
  show h.liftVal (ix1 r) c.val a = (ix2 r (c : Fin 512) a).val
  match a with
  | ⟨0, _⟩ => simp [Shape.Reduces.liftVal]
  | ⟨1, _⟩ => simp [Shape.Reduces.liftVal])

/-- A row's largest entry: the fold of `max` from `-∞` over the row. -/
theorem rowmax_apply (src : FVec Ideal S512x512 .f32) (h : S512x512.Reduces [1] S512) (hφ : FKind.Formats .f32)
    (hacc : (0xFF800000#32 : BitVec 32) = 0xFF800000#32) (r : Fin 512) :
    multiReduction .maximumf [1] S512 src 0xFF800000#32 h hφ hacc (ix1 r)
      = (Finset.univ : Finset (Fin 512)).fold max ⊥ (fun c => src (ix2 r c)) := by
  refine (Ideal.multiReduction_maximumf_single src 0xFF800000#32 h hφ hacc (ix1 r)).trans ?_
  rw [ofBits_neg_inf]
  exact congrArg (fun f : Fin 512 → EReal => (Finset.univ : Finset (Fin 512)).fold max ⊥ f)
    (funext fun c => congrArg src (lift_row h r c))

/-- A row's sum. -/
theorem rowsum_apply (src : FVec Ideal S512x512 .f32) (h : S512x512.Reduces [1] S512) (hφ : FKind.Formats .f32)
    (hacc : (0x00000000#32 : BitVec 32) = 0x00000000#32) (r : Fin 512) :
    multiReduction .add [1] S512 src 0x00000000#32 h hφ hacc (ix1 r) = ∑ c : Fin 512, src (ix2 r c) := by
  refine (Ideal.multiReduction_add_single src 0x00000000#32 h hφ hacc (ix1 r)).trans ?_
  exact Finset.sum_congr rfl fun c _ => congrArg src (lift_row h r c)

/-! ## The payloads of the step, read at an entry -/

/-- Every index of a column is `(r, 0)`. -/
theorem col_idx (y : S512x1.Idx) : y = ix2 (y 0) (0 : Fin 1) := by
  refine (eq_ix2 y).trans (congrArg (ix2 (y 0)) (Fin.ext ?_))
  have h : (y 1).val < 1 := (y 1).isLt
  show (y 1).val = 0
  omega

/-- The scores. -/
theorem pay30_apply (q k : Vec Ideal S512x1024 .bf16) (r c : Fin 512) :
    k0_pay30 (F := Ideal) q k (ix2 r c) = tScore q k r c :=
  congrArg (fun z : EReal => z * c32) (mm2_apply q k r c)

/-- The new shift. -/
theorem pay31_apply (q k : Vec Ideal S512x1024 .bf16) (m : Vec Ideal S512x1 .f32) (r : Fin 512) :
    k0_pay31 (F := Ideal) q k m (ix2 r 0) = tMax q k m r := by
  unfold k0_pay31 tMax
  refine congrArg (max (m (ix2 r 0))) ?_
  refine (Cert.LibColumn.shapeCast_a_a1_apply _ _ r 0).trans ?_
  refine (rowmax_apply _ _ _ _ r).trans ?_
  exact congrArg (fun f : Fin 512 → EReal => (Finset.univ : Finset (Fin 512)).fold max ⊥ f)
    (funext fun c => pay30_apply q k r c)

/-- The rescaling factor `exp (m' - m_new)`. -/
theorem pay32_apply (q k : Vec Ideal S512x1024 .bf16) (m m' : Vec Ideal S512x1 .f32) (r : Fin 512) :
    k0_pay32 (F := Ideal) q k m m' (ix2 r 0) = Ideal.exp (m' (ix2 r 0) - tMax q k m r) := by
  unfold k0_pay32
  exact congrArg (fun z : EReal => Ideal.exp (m' (ix2 r 0) - z)) (pay31_apply q k m r)

/-- The tile's weights `exp (score - m_new)`. -/
theorem pay33_apply (q k : Vec Ideal S512x1024 .bf16) (m : Vec Ideal S512x1 .f32) (r c : Fin 512) :
    k0_pay33 (F := Ideal) q k m (ix2 r c) = Ideal.exp (tScore q k r c - tMax q k m r) := by
  unfold k0_pay33
  have hb : broadcastTo S512x512 (k0_pay31 (F := Ideal) q k m) broadcasts_S512x1_S512x512 (ix2 r c) = tMax q k m r :=
    (Cert.LibColumn.broadcastTo_a1_ab_apply _ _ r c).trans (pay31_apply q k m r)
  show Ideal.exp (k0_pay30 (F := Ideal) q k (ix2 r c) - broadcastTo S512x512 (k0_pay31 (F := Ideal) q k m) broadcasts_S512x1_S512x512 (ix2 r c)) = _
  rw [hb, pay30_apply]

/-- The new normaliser. -/
theorem lNew_apply (q k : Vec Ideal S512x1024 .bf16) (m l : Vec Ideal S512x1 .f32) (r : Fin 512) :
    k0_pay1 (F := Ideal) (k0_pay34 q k m m l) (k0_pay35 q k m) (ix2 r 0) = tL q k m l r := by
  unfold k0_pay1 k0_pay34 k0_pay35 tL
  have h1 : k0_pay32 (F := Ideal) q k m m (ix2 r 0) = Ideal.exp (m (ix2 r 0) - tMax q k m r) := pay32_apply q k m m r
  have h2 : shapeCast S512x1 (multiReduction .add [1] S512 (k0_pay33 (F := Ideal) q k m) 0x00000000#32 reduces_S512x512_S512 (.inl rfl) rfl) shapeCasts_S512_S512x1 (ix2 r 0)
      = ∑ c : Fin 512, Ideal.exp (tScore q k r c - tMax q k m r) :=
    ((Cert.LibColumn.shapeCast_a_a1_apply _ _ r 0).trans (rowsum_apply _ _ _ _ r)).trans
      (Finset.sum_congr rfl fun c _ => pay33_apply q k m r c)
  rw [shapeCast_self]
  show k0_pay32 (F := Ideal) q k m m (ix2 r 0) * l (ix2 r 0)
      + shapeCast S512x1 (multiReduction .add [1] S512 (k0_pay33 (F := Ideal) q k m) 0x00000000#32 reduces_S512x512_S512 (.inl rfl) rfl) shapeCasts_S512_S512x1 (ix2 r 0) = _
  rw [h1, h2]

/-- The new weighted sum. -/
theorem aNew_apply (q k v : Vec Ideal S512x1024 .bf16) (m : Vec Ideal S512x1 .f32) (acc : Vec Ideal S512x1024 .f32)
    (r : Fin 512) (o : Fin 1024) :
    k0_pay2 (F := Ideal) v (k0_pay32 q k m m) (k0_pay33 q k m) acc (ix2 r o) = tA q k v m acc r o := by
  unfold k0_pay2 tA
  have h1 : broadcastTo S512x1024 (k0_pay32 (F := Ideal) q k m m) broadcasts_S512x1_S512x1024 (ix2 r o)
      = Ideal.exp (m (ix2 r 0) - tMax q k m r) :=
    (Cert.LibColumn.broadcastTo_a1_ab_apply _ _ r o).trans (pay32_apply q k m m r)
  have h2 : matmul dot_S512x512_S512x1024_S512x1024_1_0_0_1_n_n none (truncf .bf16 (k0_pay33 (F := Ideal) q k m) bitsLt_bf16_f32) v
        (constant S512x1024 .f32 0x00000000#32) (ix2 r o)
      = ∑ c : Fin 512, Ideal.exp (tScore q k r c - tMax q k m r) * v (ix2 c o) :=
    (mm3_apply _ v r o).trans (Finset.sum_congr rfl fun c _ => congrArg (· * v (ix2 c o)) (pay33_apply q k m r c))
  rw [shapeCast_self]
  show broadcastTo S512x1024 (k0_pay32 (F := Ideal) q k m m) broadcasts_S512x1_S512x1024 (ix2 r o) * acc (ix2 r o)
      + matmul dot_S512x512_S512x1024_S512x1024_1_0_0_1_n_n none (truncf .bf16 (k0_pay33 (F := Ideal) q k m) bitsLt_bf16_f32) v
          (constant S512x1024 .f32 0x00000000#32) (ix2 r o) = _
  rw [h1, h2]

/-- The new shift as it is stored (a shape cast to the same shape). -/
theorem mNew_apply (q k : Vec Ideal S512x1024 .bf16) (m : Vec Ideal S512x1 .f32) (r : Fin 512) :
    k0_pay3 (F := Ideal) (k0_pay31 q k m) (ix2 r 0) = tMax q k m r := by
  unfold k0_pay3
  rw [shapeCast_self]
  exact pay31_apply q k m r

/-- The output tile: the weighted sum times the reciprocal of the normaliser. -/
theorem out_apply (acc : Vec Ideal S512x1024 .f32) (l : Vec Ideal S512x1 .f32) (r : Fin 512) (o : Fin 1024) :
    k0_pay4 (F := Ideal) acc l (ix3 (0 : Fin 1) r o)
      = acc (ix2 r o) * Ideal.div (Ideal.ofBits .f32 0x3F800000#32) (l (ix2 r 0)) := by
  unfold k0_pay4
  refine (shapeCast_addUnit_apply ![512, 1024] _ _ (ix3 (0 : Fin 1) r o)).trans ?_
  have e : (fun a : Fin 2 => ix3 (0 : Fin 1) r o a.succ) = ix2 r o := funext fun a => by
    match a with
    | ⟨0, _⟩ => rfl
    | ⟨1, _⟩ => rfl
  rw [e]
  exact congrArg (fun z : EReal => acc (ix2 r o) * z) (Cert.LibColumn.broadcastTo_a1_ab_apply _ _ r o)

end Cert.Attn

end
-- ==== Proof.Caches.lean ====
/-
  The three projection caches a batch element's first point builds, at the ideal values.

  Each cache holds, for the batch element's 2048 rows, the row times one of the three 1024 × 1024 weight matrices:
  entry (s, o) is `∑ d, x[s, d] · W[d, o]`. The point stores it as four blocks of 512 rows, each block the product of
  those rows with the weight matrix; a block's entry (r, o) is entry (512·j + r, o) of the whole product.
-/
import proofs.«138919_j53558242181521_2_alg».proof.Proof.Step
import proofs.«138919_j53558242181521_2_alg».proof.Proof.TileOps

set_option maxRecDepth 16384

noncomputable section

open Idealize.ShloMosaic Idealize.ShloMosaic.TcCoe Idealize.SL.Sem Idealize.ShloMosaic.Tactic Idealize.ShloMosaic.ValueIdx

namespace Cert.Attn

open Cert.KernelIdeal Cert.KernelIdeal.Gen

/-- Rows of one batch element (a `[1, 2048, 1024]` block) times weight matrix `w` of the `[3, 1024, 1024]` stack. -/
def projG (x0 : Vec Ideal S1x2048x1024 .f32) (x2 : Vec Ideal S3x1024x1024 .bf16) (w : Fin 3) (y : S2048x1024.Idx) : EReal :=
  ∑ d : Fin 1024, x0 (ix3 (0 : Fin 1) (y 0 : Fin 2048) d) * x2 (ix3 w d (y 1 : Fin 1024))

/-- A block of 512 rows starting at row `n`, times weight matrix `w`, is that block of rows of the whole product. -/
theorem chunk_eq (x0 : Vec Ideal S1x2048x1024 .f32) (x2 : Vec Ideal S3x1024x1024 .bf16) (n : ℕ) (w : Fin 3)
    (hn : ∀ a, (![0, n, 0] : Fin 3 → ℕ) a + S1x512x1024.size a ≤ S1x2048x1024.size a)
    (hw : ∀ a, (![w.val, 0, 0] : Fin 3 → ℕ) a + S1x1024x1024.size a ≤ S3x1024x1024.size a)
    (hr : ∀ a, (![n, 0] : Fin 2 → ℕ) a + S512x1024.size a ≤ S2048x1024.size a) (x : S512x1024.Idx) :
    matmul (F := Ideal) (φ₁ := .bf16) (φ₂ := .bf16) dot_S512x1024_S1024x1024_S512x1024_1_0_0_1_n_n none
        (truncf (F := Ideal) .bf16 (shapeCast S512x1024 (View.ld x0 (Rect.unit (s := S1x2048x1024) ![0, n, 0] S1x512x1024.size hn) : Vec Ideal S1x512x1024 .f32) shapeCasts_S1x512x1024_S512x1024) bitsLt_bf16_f32)
        (shapeCast S1024x1024 (View.ld x2 (Rect.unit (s := S3x1024x1024) ![w.val, 0, 0] S1x1024x1024.size hw) : Vec Ideal S1x1024x1024 .bf16) shapeCasts_S1x1024x1024_S1024x1024)
        (constant (F := Ideal) S512x1024 .f32 0x00000000#32) x
      = projG x0 x2 w ((Rect.unit (s := S2048x1024) ![n, 0] S512x1024.size hr).emb x) := by
  obtain ⟨r, o, rfl⟩ : ∃ (r : Fin 512) (o : Fin 1024), x = ix2 r o := ⟨x 0, x 1, eq_ix2 x⟩
  refine (mm1_apply _ _ r o).trans ?_
  unfold projG
  refine Finset.sum_congr rfl fun d _ => ?_
  have e1 : shapeCast S512x1024 (View.ld x0 (Rect.unit (s := S1x2048x1024) ![0, n, 0] S1x512x1024.size hn) : Vec Ideal S1x512x1024 .f32) shapeCasts_S1x512x1024_S512x1024 (ix2 r d)
      = x0 (ix3 (0 : Fin 1) (((Rect.unit (s := S2048x1024) ![n, 0] S512x1024.size hr).emb (ix2 r o)) 0 : Fin 2048) d) := by
    refine (shapeCast_dropUnit_apply ![512, 1024] _ _ (ix2 r d)).trans ?_
    refine congrArg x0 (funext fun a => Fin.ext ?_)
    match a with
    | ⟨0, _⟩ => rfl
    | ⟨1, _⟩ => rfl
    | ⟨2, _⟩ => show 0 + 1 * d.val = d.val; omega
  have e2 : shapeCast S1024x1024 (View.ld x2 (Rect.unit (s := S3x1024x1024) ![w.val, 0, 0] S1x1024x1024.size hw) : Vec Ideal S1x1024x1024 .bf16) shapeCasts_S1x1024x1024_S1024x1024 (ix2 d o)
      = x2 (ix3 w d (((Rect.unit (s := S2048x1024) ![n, 0] S512x1024.size hr).emb (ix2 r o)) 1 : Fin 1024)) := by
    refine (shapeCast_dropUnit_apply ![1024, 1024] _ _ (ix2 d o)).trans ?_
    refine congrArg x2 (funext fun a => Fin.ext ?_)
    match a with
    | ⟨0, _⟩ => show w.val + 1 * 0 = w.val; omega
    | ⟨1, _⟩ => show 0 + 1 * d.val = d.val; omega
    | ⟨2, _⟩ => show 0 + 1 * o.val = 0 + 1 * o.val; rfl
  exact congrArg₂ (· * ·) e1 e2

/-- What a covering list of stores leaves, when every store's payload is its rectangle's part of one function. -/
theorem read_writes_eq_of_pieces {sig : RefSig} {κ : Kind} {sp : Space} {s : Shape} {e : EltTy} {Val : EltTy → Type}
    [∀ e, Nonempty (Val e)] (v : View sig κ sp s e) (f : v.ty.Contents Val) (L : List (View.Piece Val s e)) (G : s.Idx → Val e)
    (hL : ∀ p ∈ L, ∀ x : p.1.shape.Idx, p.2 x = G (p.1.emb x)) (hc : ∀ y, ∃ p ∈ L, y ∈ p.1.set) :
    v.read Val (v.writes Val f L) = G :=
  (View.read_writes_eq_canon v f L hc).trans (funext fun y => View.canon_apply_of_pieces G L hL y (hc y))

/-! ## The three caches -/

theorem cacheQ (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : cond0_0 i) (hc1 : cond0_1 i) (hc2 : ¬cond0_2 i) (x0 : Vec Ideal S1x2048x1024 .f32) (x1 : Vec Ideal S1x2048x1024 .f32) (x2 : Vec Ideal S3x1024x1024 .bf16) :
    sout0_A_0 (F := Ideal) c i a3 h3 a4 h4 a5 h5 a6 h6 scM0_0 (Memref.isWhole_whole _) scM0_1 (Memref.isWhole_whole _) scM0_2 (Memref.isWhole_whole _) a10 h10 a11 h11 a12 h12 hc0 hc1 hc2 x0 x1 x2 = projG x0 x2 0 := by
  unfold sout0_A_0
  refine read_writes_eq_of_pieces _ _ _ _ ?_ (scover0_A_0 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2)
  unfold kernelRun0_A
  dsimp only
  sl_unfold_words
  simp only [View.readAt_eq_ld, h3.read_unread, h4.read_unread, h5.read_unread]
  intro p hp
  simp only [List.mem_cons, List.not_mem_nil, or_false] at hp
  rcases hp with rfl | rfl | rfl | rfl
  · intro x; dsimp only; unfold k0_pay23 k0_pay22 k0_pay5; dsimp only; rw [shapeCast_self]; exact chunk_eq x0 x2 1536 0 _ _ _ x
  · intro x; dsimp only; unfold k0_pay19 k0_pay18 k0_pay16 k0_pay5; dsimp only; rw [shapeCast_self]; exact chunk_eq x0 x2 1024 0 _ _ _ x
  · intro x; dsimp only; unfold k0_pay13 k0_pay12 k0_pay5; dsimp only; rw [shapeCast_self]; exact chunk_eq x0 x2 512 0 _ _ _ x
  · intro x; dsimp only; unfold k0_pay9 k0_pay8 k0_pay5; dsimp only; rw [shapeCast_self]; exact chunk_eq x0 x2 0 0 _ _ _ x

theorem cacheK (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : cond0_0 i) (hc1 : cond0_1 i) (hc2 : ¬cond0_2 i) (x0 : Vec Ideal S1x2048x1024 .f32) (x1 : Vec Ideal S1x2048x1024 .f32) (x2 : Vec Ideal S3x1024x1024 .bf16) :
    sout0_A_1 (F := Ideal) c i a3 h3 a4 h4 a5 h5 a6 h6 scM0_0 (Memref.isWhole_whole _) scM0_1 (Memref.isWhole_whole _) scM0_2 (Memref.isWhole_whole _) a10 h10 a11 h11 a12 h12 hc0 hc1 hc2 x0 x1 x2 = projG x0 x2 1 := by
  unfold sout0_A_1
  refine read_writes_eq_of_pieces _ _ _ _ ?_ (scover0_A_1 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2)
  unfold kernelRun0_A
  dsimp only
  sl_unfold_words
  simp only [View.readAt_eq_ld, h3.read_unread, h4.read_unread, h5.read_unread]
  intro p hp
  simp only [List.mem_cons, List.not_mem_nil, or_false] at hp
  rcases hp with rfl | rfl | rfl | rfl
  · intro x; dsimp only; unfold k0_pay24 k0_pay22 k0_pay6; dsimp only; rw [shapeCast_self]; exact chunk_eq x0 x2 1536 1 _ _ _ x
  · intro x; dsimp only; unfold k0_pay20 k0_pay16 k0_pay6; dsimp only; rw [shapeCast_self]; exact chunk_eq x0 x2 1024 1 _ _ _ x
  · intro x; dsimp only; unfold k0_pay14 k0_pay12 k0_pay6; dsimp only; rw [shapeCast_self]; exact chunk_eq x0 x2 512 1 _ _ _ x
  · intro x; dsimp only; unfold k0_pay10 k0_pay8 k0_pay6; dsimp only; rw [shapeCast_self]; exact chunk_eq x0 x2 0 1 _ _ _ x

theorem cacheV (c : Dev nD) (i : grid0.Coords) (a3 : Memref sig .tc .vmem S1x2048x1024 .f32) (h3 : a3.IsWhole) (a4 : Memref sig .tc .vmem S1x2048x1024 .f32) (h4 : a4.IsWhole) (a5 : Memref sig .tc .vmem S3x1024x1024 .bf16) (h5 : a5.IsWhole) (a6 : Memref sig .tc .vmem S1x512x1024 .f32) (h6 : a6.IsWhole) (a10 : Memref sig .tc .vmem S512x1 .f32) (h10 : a10.IsWhole) (a11 : Memref sig .tc .vmem S512x1 .f32) (h11 : a11.IsWhole) (a12 : Memref sig .tc .vmem S512x1024 .f32) (h12 : a12.IsWhole) (hc0 : cond0_0 i) (hc1 : cond0_1 i) (hc2 : ¬cond0_2 i) (x0 : Vec Ideal S1x2048x1024 .f32) (x1 : Vec Ideal S1x2048x1024 .f32) (x2 : Vec Ideal S3x1024x1024 .bf16) :
    sout0_A_2 (F := Ideal) c i a3 h3 a4 h4 a5 h5 a6 h6 scM0_0 (Memref.isWhole_whole _) scM0_1 (Memref.isWhole_whole _) scM0_2 (Memref.isWhole_whole _) a10 h10 a11 h11 a12 h12 hc0 hc1 hc2 x0 x1 x2 = projG x1 x2 2 := by
  unfold sout0_A_2
  refine read_writes_eq_of_pieces _ _ _ _ ?_ (scover0_A_2 c i a3 h3 a4 h4 a5 h5 a6 h6 scM0_0 (Memref.isWhole_whole _) scM0_1 (Memref.isWhole_whole _) scM0_2 (Memref.isWhole_whole _) a10 h10 a11 h11 a12 h12 hc0 hc1 hc2 x0 x1 x2)
  unfold kernelRun0_A
  dsimp only
  sl_unfold_words
  simp only [View.readAt_eq_ld, h3.read_unread, h4.read_unread, h5.read_unread]
  intro p hp
  simp only [List.mem_cons, List.not_mem_nil, or_false] at hp
  rcases hp with rfl | rfl | rfl | rfl
  · intro x; dsimp only; unfold k0_pay26 k0_pay25 k0_pay7; dsimp only; rw [shapeCast_self]; exact chunk_eq x1 x2 1536 2 _ _ _ x
  · intro x; dsimp only; unfold k0_pay21 k0_pay17 k0_pay7; dsimp only; rw [shapeCast_self]; exact chunk_eq x1 x2 1024 2 _ _ _ x
  · intro x; dsimp only; unfold k0_pay15 k0_pay7; dsimp only; rw [shapeCast_self]; exact chunk_eq x1 x2 512 2 _ _ _ x
  · intro x; dsimp only; unfold k0_pay11 k0_pay7; dsimp only; rw [shapeCast_self]; exact chunk_eq x1 x2 0 2 _ _ _ x

end Cert.Attn

end
-- ==== Proof.Invariant.lean ====
/-
  What the carried state holds after every grid point.

  The grid runs over a batch element `b`, a query tile `qi` and a key tile `ki`, the key tile fastest: point `n` has
  `b = n / 16`, `qi = n / 4 % 4`, `ki = n % 4`. After point `n` the three caches hold batch element `b`'s projections, and
  the shift, normaliser and weighted sum hold, for each of the query tile's 512 rows, the streamed state after the key
  blocks `0 … ki`. This is proved point by point: a batch element's first point builds the caches and starts the
  sweep; a query tile's first point restarts the sweep over the caches it found; every other point advances the sweep
  by one key block.
-/
import proofs.«138919_j53558242181521_2_alg».proof.Proof.Gen.KernelIdeal.Value
import proofs.«138919_j53558242181521_2_alg».proof.Proof.Caches

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.Attn

open Cert.KernelIdeal Cert.KernelIdeal.Gen Cert.LibFinite Cert.LibStream

/-! ## The grid -/

theorem coords_val : ∀ t : Fin cfg0.N,
    (grid0.coords t 0).val = t.val / 16 ∧ (grid0.coords t 1).val = t.val / 4 % 4 ∧ (grid0.coords t 2).val = t.val % 4 :=
  (by decide +kernel : ∀ t : Fin grid0.N, _)

theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = t.val / 16 ∧ win0_3.index t (1 : Fin 3) = t.val / 4 % 4 ∧ win0_3.index t (2 : Fin 3) = 0 :=
  (by decide +kernel : ∀ t : Fin grid0.N, _)

/-! ## The input blocks at a point -/

section Blocks

variable (m : (ℓ : Loc nD τ sig) → Buf (Elt Ideal) ℓ) (c : Dev nD)

/-- The block of `x` at a point is batch element `n / 16`. -/
theorem iblk0_apply (t : Fin cfg0.N) (s : Fin 2048) (d : Fin 1024) :
    (iblk m c 0 t : Vec Ideal S1x2048x1024 .f32) (ix3 (0 : Fin 1) s d) = V m c main_arg0 (ix3 (bIdx (t.val / 16)) s d) := by
  obtain ⟨e0, e1, e2, -⟩ := idx_facts t
  have hN : t.val < 64 := lt_of_lt_of_eq t.isLt N_0
  show V m c main_arg0 (((cfg0.win 0).blk t).view.emb (ix3 (0 : Fin 1) s d)) = _
  refine congrArg _ (funext fun a => Fin.ext ?_)
  match a with
  | ⟨0, _⟩ => show win0_0.index t (0 : Fin 3) * 1 + 1 * 0 = (t.val / 16) % 4; omega
  | ⟨1, _⟩ => show win0_0.index t (1 : Fin 3) * 2048 + 1 * s.val = s.val; omega
  | ⟨2, _⟩ => show win0_0.index t (2 : Fin 3) * 1024 + 1 * d.val = d.val; omega

/-- The block of `y` at a point is batch element `n / 16`. -/
theorem iblk1_apply (t : Fin cfg0.N) (s : Fin 2048) (d : Fin 1024) :
    (iblk m c 1 t : Vec Ideal S1x2048x1024 .f32) (ix3 (0 : Fin 1) s d) = V m c main_arg1 (ix3 (bIdx (t.val / 16)) s d) := by
  obtain ⟨-, -, -, e0, e1, e2, -⟩ := idx_facts t
  have hN : t.val < 64 := lt_of_lt_of_eq t.isLt N_0
  show V m c main_arg1 (((cfg0.win 1).blk t).view.emb (ix3 (0 : Fin 1) s d)) = _
  refine congrArg _ (funext fun a => Fin.ext ?_)
  match a with
  | ⟨0, _⟩ => show win0_1.index t (0 : Fin 3) * 1 + 1 * 0 = (t.val / 16) % 4; omega
  | ⟨1, _⟩ => show win0_1.index t (1 : Fin 3) * 2048 + 1 * s.val = s.val; omega
  | ⟨2, _⟩ => show win0_1.index t (2 : Fin 3) * 1024 + 1 * d.val = d.val; omega

/-- The block of the weights at a point is the whole stack. -/
theorem iblk2_apply (t : Fin cfg0.N) (w : Fin 3) (d o : Fin 1024) :
    (iblk m c 2 t : Vec Ideal S3x1024x1024 .bf16) (ix3 w d o) = V m c main_v0 (ix3 w d o) := by
  obtain ⟨-, -, -, -, -, -, e0, e1, e2, -⟩ := idx_facts t
  show V m c main_v0 (((cfg0.win 2).blk t).view.emb (ix3 w d o)) = _
  refine congrArg _ (funext fun a => Fin.ext ?_)
  match a with
  | ⟨0, _⟩ => show win0_2.index t (0 : Fin 3) * 3 + 1 * w.val = w.val; omega
  | ⟨1, _⟩ => show win0_2.index t (1 : Fin 3) * 1024 + 1 * d.val = d.val; omega
  | ⟨2, _⟩ => show win0_2.index t (2 : Fin 3) * 1024 + 1 * o.val = o.val; omega

end Blocks

/-! ## Tiles of a cache -/

/-- The projection of batch element `b` by weight matrix `w`, as the contents of a cache. -/
def cacheArr (x : SX.Idx → EReal) (k : SK.Idx → EReal) (w : Fin 3) (b : ℕ) : S2048x1024.Idx → EReal :=
  fun y => WP x k w b (y 0 : Fin 2048) (y 1 : Fin 1024)

theorem qTile_apply (i : grid0.Coords) (hq : (i 1).val < 4) (W : Vec Ideal S2048x1024 .bf16) (r : Fin 512) (o : Fin 1024) :
    qTile i W (ix2 r o) = W (ix2 (rowOf (i 1).val r) o) := by
  have e0 : k0_off3 i 0 = 512 * (i 1).val := congrFun (k0_off3_eq i) 0
  have e1 : k0_off3 i 1 = 0 := congrFun (k0_off3_eq i) 1
  show W ((Rect.unit (s := S2048x1024) (k0_off3 i) S512x1024.size (Gen.k0_off3_inb i)).idx (ix2 r o)) = _
  refine congrArg W (funext fun a => Fin.ext ?_)
  match a with
  | ⟨0, _⟩ => show k0_off3 i 0 + 1 * r.val = (512 * (i 1).val + r.val) % 2048; have := r.isLt; omega
  | ⟨1, _⟩ => show k0_off3 i 1 + 1 * o.val = o.val; omega

theorem kTile_apply (i : grid0.Coords) (hk : (i 2).val < 4) (W : Vec Ideal S2048x1024 .bf16) (r : Fin 512) (o : Fin 1024) :
    kTile i W (ix2 r o) = W (ix2 (rowOf (i 2).val r) o) := by
  have e0 : k0_off4 i 0 = 512 * (i 2).val := congrFun (k0_off4_eq i) 0
  have e1 : k0_off4 i 1 = 0 := congrFun (k0_off4_eq i) 1
  show W ((Rect.unit (s := S2048x1024) (k0_off4 i) S512x1024.size (Gen.k0_off4_inb i)).idx (ix2 r o)) = _
  refine congrArg W (funext fun a => Fin.ext ?_)
  match a with
  | ⟨0, _⟩ => show k0_off4 i 0 + 1 * r.val = (512 * (i 2).val + r.val) % 2048; have := r.isLt; omega
  | ⟨1, _⟩ => show k0_off4 i 1 + 1 * o.val = o.val; omega

section Advance

variable (x y : SX.Idx → EReal) (k : SK.Idx → EReal) (b : ℕ) (i : grid0.Coords) (hq : (i 1).val < 4) (hk : (i 2).val < 4)
include hq hk

/-- A tile's score is the batch element's score of the tile's query row against the tile's key row. -/
theorem tScore_eq (r c : Fin 512) :
    tScore (qTile (F := Ideal) i (cacheArr x k 0 b)) (kTile (F := Ideal) i (cacheArr x k 1 b)) r c = sBlk x k b (rowOf (i 1).val r) (i 2).val c := by
  unfold tScore sBlk Sc
  refine congrArg (· * c32) (Finset.sum_congr rfl fun o _ => ?_)
  rw [qTile_apply i hq, kTile_apply i hk]
  rfl

/-- One block more: the shift. -/
theorem mNew_eq (mp : Vec Ideal S512x1 .f32)
    (hm : mp = fun z => mSt negBig (sBlk x k b (rowOf (i 1).val (z 0 : Fin 512))) (i 2).val) :
    mNew (F := Ideal) i (cacheArr x k 0 b) (cacheArr x k 1 b) mp
      = fun z => mSt negBig (sBlk x k b (rowOf (i 1).val (z 0 : Fin 512))) ((i 2).val + 1) := by
  subst hm
  funext z
  obtain ⟨r, rfl⟩ : ∃ r : Fin 512, z = ix2 r (0 : Fin 1) := ⟨z 0, col_idx z⟩
  unfold mNew
  rw [mNew_apply]
  unfold tMax
  simp only [tScore_eq x k b i hq hk]
  rfl

/-- One block more: the normaliser. -/
theorem lNew_eq (mp lp : Vec Ideal S512x1 .f32)
    (hm : mp = fun z => mSt negBig (sBlk x k b (rowOf (i 1).val (z 0 : Fin 512))) (i 2).val)
    (hl : lp = fun z => lSt negBig (sBlk x k b (rowOf (i 1).val (z 0 : Fin 512))) (i 2).val) :
    lNew (F := Ideal) i (cacheArr x k 0 b) (cacheArr x k 1 b) mp lp
      = fun z => lSt negBig (sBlk x k b (rowOf (i 1).val (z 0 : Fin 512))) ((i 2).val + 1) := by
  subst hm hl
  funext z
  obtain ⟨r, rfl⟩ : ∃ r : Fin 512, z = ix2 r (0 : Fin 1) := ⟨z 0, col_idx z⟩
  unfold lNew
  rw [lNew_apply]
  unfold tL tMax
  simp only [tScore_eq x k b i hq hk]
  rfl

/-- One block more: the weighted sum. -/
theorem aNew_eq (mp : Vec Ideal S512x1 .f32) (ap : Vec Ideal S512x1024 .f32)
    (hm : mp = fun z => mSt negBig (sBlk x k b (rowOf (i 1).val (z 0 : Fin 512))) (i 2).val)
    (ha : ap = fun z => aSt negBig (sBlk x k b (rowOf (i 1).val (z 0 : Fin 512))) (vBlk y k b (z 1 : Fin 1024)) (i 2).val) :
    aNew (F := Ideal) i (cacheArr x k 0 b) (cacheArr x k 1 b) (cacheArr y k 2 b) mp ap
      = fun z => aSt negBig (sBlk x k b (rowOf (i 1).val (z 0 : Fin 512))) (vBlk y k b (z 1 : Fin 1024)) ((i 2).val + 1) := by
  subst hm ha
  funext z
  obtain ⟨r, o, rfl⟩ : ∃ (r : Fin 512) (o : Fin 1024), z = ix2 r o := ⟨z 0, z 1, eq_ix2 z⟩
  unfold aNew
  rw [aNew_apply]
  unfold tA tMax
  simp only [tScore_eq x k b i hq hk, kTile_apply i hk]
  rfl

end Advance

/-! ## The reset values -/

theorem pay27_eq (S : S512x1.Idx → ℕ → Fin 512 → EReal) : k0_pay27 (F := Ideal) = fun z => mSt negBig (S z) 0 := by
  unfold k0_pay27; dsimp only; rw [shapeCast_self]; rfl

theorem pay28_eq (S : S512x1.Idx → ℕ → Fin 512 → EReal) : k0_pay28 (F := Ideal) = fun z => lSt negBig (S z) 0 := by
  unfold k0_pay28; dsimp only; rw [shapeCast_self]; funext z; exact ofBits_zero

theorem pay29_eq (S T : S512x1024.Idx → ℕ → Fin 512 → EReal) : k0_pay29 (F := Ideal) = fun z => aSt negBig (S z) (T z) 0 := by
  unfold k0_pay29; dsimp only; rw [shapeCast_self]; funext z; exact ofBits_zero

/-! ## The state after a point -/

/-- The carried state `T` (the output tile, the three caches, the shift, the normaliser, the weighted sum) holds batch
    element `b`'s projections and, for query tile `qi`, the streamed state after `j` key blocks. -/
def InvS (x y : SX.Idx → EReal) (k : SK.Idx → EReal) (b qi j : ℕ)
    (T : Vec Ideal S1x512x1024 .f32 × Vec Ideal S2048x1024 .bf16 × Vec Ideal S2048x1024 .bf16 × Vec Ideal S2048x1024 .bf16
      × Vec Ideal S512x1 .f32 × Vec Ideal S512x1 .f32 × Vec Ideal S512x1024 .f32) : Prop :=
  T.2.1 = cacheArr x k 0 b ∧ T.2.2.1 = cacheArr x k 1 b ∧ T.2.2.2.1 = cacheArr y k 2 b
  ∧ T.2.2.2.2.1 = (fun z => mSt negBig (sBlk x k b (rowOf qi (z 0 : Fin 512))) j)
  ∧ T.2.2.2.2.2.1 = (fun z => lSt negBig (sBlk x k b (rowOf qi (z 0 : Fin 512))) j)
  ∧ T.2.2.2.2.2.2 = (fun z => aSt negBig (sBlk x k b (rowOf qi (z 0 : Fin 512))) (vBlk y k b (z 1 : Fin 1024)) j)

section Points

variable (m : (ℓ : Loc nD τ sig) → Buf (Elt Ideal) ℓ) (c : Dev nD)

/-- The rows of a point's block of `x` times weight matrix `w` are batch element `n / 16`'s projection. -/
theorem projG_x (t : Fin cfg0.N) (w : Fin 3) :
    projG (iblk m c 0 t) (iblk m c 2 t) w = cacheArr (V m c main_arg0) (V m c main_v0) w (t.val / 16) := by
  funext z
  unfold projG cacheArr WP
  refine Finset.sum_congr rfl fun d _ => ?_
  exact congrArg₂ (· * ·) (iblk0_apply m c t _ _) (iblk2_apply m c t _ _ _)

theorem projG_y (t : Fin cfg0.N) (w : Fin 3) :
    projG (iblk m c 1 t) (iblk m c 2 t) w = cacheArr (V m c main_arg1) (V m c main_v0) w (t.val / 16) := by
  funext z
  unfold projG cacheArr WP
  refine Finset.sum_congr rfl fun d _ => ?_
  exact congrArg₂ (· * ·) (iblk1_apply m c t _ _) (iblk2_apply m c t _ _ _)

/-- A batch element's first point. -/
theorem inv_A (t : Fin cfg0.N) (h0 : t.val % 16 = 0) :
    InvS (V m c main_arg0) (V m c main_arg1) (V m c main_v0) (t.val / 16) (t.val / 4 % 4) (t.val % 4 + 1)
      (outsAt0 m c t.val t.isLt) := by
  have hN : t.val < 64 := lt_of_lt_of_eq t.isLt N_0
  have h1 : t.val % 4 = 0 := by omega
  have h2 : ¬t.val % 4 = 3 := by omega
  obtain ⟨c0, c1, c2⟩ := coords_val t
  have hq : (grid0.coords t 1).val < 4 := by omega
  have hk : (grid0.coords t 2).val < 4 := by omega
  have hk0 : (grid0.coords t 2).val = 0 := by omega
  rw [outsAt0_A m c t h0 h1 h2]
  unfold InvS
  dsimp only
  rw [sout_A_3, sout_A_4, sout_A_5, cacheQ, cacheK, cacheV, projG_x, projG_x, projG_y, ← c1, ← c2]
  refine ⟨rfl, rfl, rfl, ?_, ?_, ?_⟩
  · exact mNew_eq _ _ _ _ hq hk _ (by rw [hk0]; exact pay27_eq _)
  · exact lNew_eq _ _ _ _ hq hk _ _ (by rw [hk0]; exact pay27_eq _) (by rw [hk0]; exact pay28_eq _)
  · exact aNew_eq _ _ _ _ _ hq hk _ _ (by rw [hk0]; exact pay27_eq _) (by rw [hk0]; exact pay29_eq _ _)

/-- Every other point, from the point before. -/
theorem inv_step (t : Fin cfg0.N) (h0 : ¬t.val % 16 = 0)
    (ih : InvS (V m c main_arg0) (V m c main_arg1) (V m c main_v0) ((t.val - 1) / 16) ((t.val - 1) / 4 % 4) ((t.val - 1) % 4 + 1)
      (outsAt0 m c (t.val - 1) (Nat.lt_of_le_of_lt (Nat.sub_le _ _) t.isLt))) :
    InvS (V m c main_arg0) (V m c main_arg1) (V m c main_v0) (t.val / 16) (t.val / 4 % 4) (t.val % 4 + 1)
      (outsAt0 m c t.val t.isLt) := by
  have hN : t.val < 64 := lt_of_lt_of_eq t.isLt N_0
  obtain ⟨c0, c1, c2⟩ := coords_val t
  have hq : (grid0.coords t 1).val < 4 := by omega
  have hk : (grid0.coords t 2).val < 4 := by omega
  have e1 : (t.val - 1) / 16 = t.val / 16 := by omega
  rw [e1] at ih
  obtain ⟨iq, ik, iv, im, il, ia⟩ := ih
  by_cases h1 : t.val % 4 = 0
  · have h2 : ¬t.val % 4 = 3 := by omega
    have hk0 : (grid0.coords t 2).val = 0 := by omega
    rw [outsAt0_D m c t h0 h1 h2]
    unfold InvS
    dsimp only
    rw [sout_D_3, sout_D_4, sout_D_5]
    unfold sout0_D_0 sout0_D_1 sout0_D_2
    rw [iq, ik, iv, ← c1, ← c2]
    refine ⟨rfl, rfl, rfl, ?_, ?_, ?_⟩
    · exact mNew_eq _ _ _ _ hq hk _ (by rw [hk0]; exact pay27_eq _)
    · exact lNew_eq _ _ _ _ hq hk _ _ (by rw [hk0]; exact pay27_eq _) (by rw [hk0]; exact pay28_eq _)
    · exact aNew_eq _ _ _ _ _ hq hk _ _ (by rw [hk0]; exact pay27_eq _) (by rw [hk0]; exact pay29_eq _ _)
  · have e2 : (t.val - 1) / 4 % 4 = t.val / 4 % 4 := by omega
    have e3 : (t.val - 1) % 4 + 1 = t.val % 4 := by omega
    rw [e2, e3, ← c1, ← c2] at im il ia
    by_cases h2 : t.val % 4 = 3
    · rw [outsAt0_C m c t h0 h1 h2]
      unfold InvS
      dsimp only
      rw [sout_C_3, sout_C_4, sout_C_5]
      unfold sout0_C_0 sout0_C_1 sout0_C_2
      rw [iq, ik, iv, im, il, ia, ← c1, ← c2]
      exact ⟨rfl, rfl, rfl, mNew_eq _ _ _ _ hq hk _ rfl, lNew_eq _ _ _ _ hq hk _ _ rfl rfl, aNew_eq _ _ _ _ _ hq hk _ _ rfl rfl⟩
    · rw [outsAt0_B m c t h0 h1 h2]
      unfold InvS
      dsimp only
      rw [sout_B_3, sout_B_4, sout_B_5]
      unfold sout0_B_0 sout0_B_1 sout0_B_2
      rw [iq, ik, iv, im, il, ia, ← c1, ← c2]
      exact ⟨rfl, rfl, rfl, mNew_eq _ _ _ _ hq hk _ rfl, lNew_eq _ _ _ _ hq hk _ _ rfl rfl, aNew_eq _ _ _ _ _ hq hk _ _ rfl rfl⟩

/-- The state after every point. -/
theorem inv : ∀ (n : ℕ) (hn : n < cfg0.N),
    InvS (V m c main_arg0) (V m c main_arg1) (V m c main_v0) (n / 16) (n / 4 % 4) (n % 4 + 1) (outsAt0 m c n hn) := by
  intro n
  induction n using Nat.strong_induction_on with
  | _ n ih =>
    intro hn
    by_cases h0 : n % 16 = 0
    · exact inv_A m c ⟨n, hn⟩ h0
    · exact inv_step m c ⟨n, hn⟩ h0 (ih (n - 1) (by omega) _)

end Points

end Cert.Attn

end
-- ==== Proof.KernelValue.lean ====
/-
  The kernel's result array.

  The output tile of batch element `b`, query tile `qi` is written back once, at the last key tile's point (`n % 4 = 3`);
  there the weighted sum and the normaliser hold the streamed state after all four key blocks, so the tile written is
  that tile of the result array `G`. The 16 tiles written cover the array: entry (b, q, o) lies in the tile of the point
  `16·b + 4·(q / 512) + 3`.
-/
import proofs.«138919_j53558242181521_2_alg».proof.Proof.Invariant

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.Attn

open Cert.KernelIdeal Cert.KernelIdeal.Gen Cert.LibFinite Cert.LibStream

/-- The output window is written back exactly at the last key tile's points. -/
theorem flush_iff : ∀ t : Fin cfg0.N, (cfg0.win 3).flush t = true ↔ t.val % 4 = 3 :=
  (by decide +kernel : ∀ t : Fin grid0.N, _)

/-- Where entry (r, o) of a point's output tile sits in the result array. -/
theorem emb3 (t : Fin cfg0.N) (r : Fin 512) (o : Fin 1024) :
    ((cfg0.win 3).blk t).view.emb (ix3 (0 : Fin 1) r o) = ix3 (bIdx (t.val / 16)) (rowOf (t.val / 4 % 4) r) o := by
  obtain ⟨-, -, -, -, -, -, -, -, -, e0, e1, e2⟩ := idx_facts t
  have hN : t.val < 64 := lt_of_lt_of_eq t.isLt N_0
  funext a; apply Fin.ext
  match a with
  | ⟨0, _⟩ => show win0_3.index t (0 : Fin 3) * 1 + 1 * 0 = (t.val / 16) % 4; omega
  | ⟨1, _⟩ => show win0_3.index t (1 : Fin 3) * 512 + 1 * r.val = (512 * (t.val / 4 % 4) + r.val) % 2048; have := r.isLt; omega
  | ⟨2, _⟩ => show win0_3.index t (2 : Fin 3) * 1024 + 1 * o.val = o.val; omega

section Run

variable (m : (ℓ : Loc nD τ sig) → Buf (Elt Ideal) ℓ) (ρ : Dev nD → PrngReg) (c : Dev nD)

/-- What a point writes back is its tile of the result array. -/
theorem flushed_eq (t : Fin cfg0.N) (hf : (cfg0.win 3).flush t = true) :
    (dats m 0 c).flushed 3 t
      = ((cfg0.win 3).blk t).view.read (Elt Ideal) (G (V m c main_arg0) (V m c main_arg1) (V m c main_v0)) := by
  have hN : t.val < 64 := lt_of_lt_of_eq t.isLt N_0
  have h2 : t.val % 4 = 3 := (flush_iff t).mp hf
  have h0 : ¬t.val % 16 = 0 := by omega
  have h1 : ¬t.val % 4 = 0 := by omega
  obtain ⟨c0, c1, c2⟩ := coords_val t
  have hq : (grid0.coords t 1).val < 4 := by omega
  have hk : (grid0.coords t 2).val < 4 := by omega
  have ih := inv m c (t.val - 1) (Nat.lt_of_le_of_lt (Nat.sub_le _ _) t.isLt)
  have e1 : (t.val - 1) / 16 = t.val / 16 := by omega
  have e2 : (t.val - 1) / 4 % 4 = t.val / 4 % 4 := by omega
  have e3 : (t.val - 1) % 4 + 1 = t.val % 4 := by omega
  rw [e1, e2, e3, ← c1, ← c2] at ih
  obtain ⟨iq, ik, iv, im, il, ia⟩ := ih
  rw [Cert.KernelIdeal.Value.flushed3_C m c t h0 h1 h2, out_C, iq, ik, iv, im, il, ia]
  funext j
  obtain ⟨u, r, o, rfl⟩ : ∃ (u : Fin 1) (r : Fin 512) (o : Fin 1024), j = ix3 u r o :=
    ⟨(j : S1x512x1024.Idx) 0, (j : S1x512x1024.Idx) 1, (j : S1x512x1024.Idx) 2, eq_ix3 (j : S1x512x1024.Idx)⟩
  obtain rfl : u = 0 := Subsingleton.elim _ _
  show oNew (F := Ideal) (grid0.coords t) _ _ _ _ _ _ (ix3 (0 : Fin 1) r o)
      = G (V m c main_arg0) (V m c main_arg1) (V m c main_v0) (((cfg0.win 3).blk t).view.emb (ix3 (0 : Fin 1) r o))
  rw [emb3]
  unfold oNew
  rw [out_apply, aNew_eq _ _ _ _ _ hq hk _ _ rfl rfl, lNew_eq _ _ _ _ hq hk _ _ rfl rfl]
  have hb : (bIdx (t.val / 16)).val = t.val / 16 := by show (t.val / 16) % 4 = t.val / 16; omega
  have h4 : (grid0.coords t 2).val + 1 = 4 := by omega
  unfold G
  dsimp only
  rw [h4, c1]
  show _ = aSt negBig (sBlk _ _ (bIdx (t.val / 16)).val _) (vBlk _ _ (bIdx (t.val / 16)).val _) 4
      * Ideal.div _ (lSt negBig (sBlk _ _ (bIdx (t.val / 16)).val _) 4)
  rw [hb]

/-- An entry of the result array is in a point's tile iff each coordinate is in the tile's range. -/
theorem mem_blk3 (t : Fin cfg0.N) (i : S4x2048x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v1).slice (win0_3.rect t)).set ↔ _
  rw [View.set_slice_whole, Rect.mem_set_unit]
  exact Iff.rfl

/-- Every entry of the result array is written back by some point. -/
theorem cover3 (i : S4x2048x1024.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1024 := (i 2).isLt
  obtain ⟨n, hn⟩ : ∃ n : ℕ, n = 16 * (i 0).val + 4 * ((i 1).val / 512) + 3 := ⟨_, rfl⟩
  have hlt : n < cfg0.N := lt_of_lt_of_eq (by omega : n < 64) N_0.symm
  refine ⟨⟨n, hlt⟩, (flush_iff _).mpr (by show n % 4 = 3; omega), ?_⟩
  rw [mem_blk3]
  obtain ⟨-, -, -, -, -, -, -, -, -, e0, e1, e2⟩ := idx_facts ⟨n, hlt⟩
  have e0' : win0_3.index ⟨n, hlt⟩ (0 : Fin 3) = n / 16 := e0
  have e1' : win0_3.index ⟨n, hlt⟩ (1 : Fin 3) = n / 4 % 4 := e1
  intro a
  match a with
  | ⟨0, _⟩ =>
    show win0_3.index ⟨n, hlt⟩ (0 : Fin 3) * 1 ≤ (i 0).val ∧ (i 0).val < win0_3.index ⟨n, hlt⟩ (0 : Fin 3) * 1 + 1
    omega
  | ⟨1, _⟩ =>
    show win0_3.index ⟨n, hlt⟩ (1 : Fin 3) * 512 ≤ (i 1).val ∧ (i 1).val < win0_3.index ⟨n, hlt⟩ (1 : Fin 3) * 512 + 512
    omega
  | ⟨2, _⟩ =>
    show win0_3.index ⟨n, hlt⟩ (2 : Fin 3) * 1024 ≤ (i 2).val ∧ (i 2).val < win0_3.index ⟨n, hlt⟩ (2 : Fin 3) * 1024 + 1024
    omega

/-- The result array after the run. -/
theorem final : (dats m 0 c).arrAt 3 cfg0.N = G (V m c main_arg0) (V m c main_arg1) (V m c main_v0) :=
  (dats m 0 c).arrAt_eq_of_cover 3 _ (fun t hf => flushed_eq m c t hf) cover3

/-- The array of weights the region finds is the argument's, cast to the narrower format: at the ideal values, itself. -/
theorem V_weights : (V m c main_v0 : S3x1024x1024.Idx → EReal) = m ((c : Thread nD τ).loc main_arg2) := by
  have e : (V m c main_v0 : S3x1024x1024.Idx → EReal)
      = truncf (F := Ideal) .bf16 (m ((c : Thread nD τ).loc main_arg2)) bitsLt_bf16_f32 := by
    dsimp only [Gen.V, Gen.hostOps0]; after_results
  rw [e]; rfl

/-- The run: the kernel's program ends with the result array at `G` of its arguments, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by rw [(h c).1, final m c, V_main_arg0, V_main_arg1, V_weights], (h c).2⟩)
    (Cert.KernelIdeal.Value.run_blocks m ρ)

end Run

end Cert.Attn

end
-- ==== Proof.RefValue.lean ====
/-
  The reference, read entry by entry, and its agreement with the streamed form.

  The reference forms the three projections, the scores `(q·k) · (1 / √1024)`, each row's largest score, the weights
  `exp (score - max)`, their row sums, the quotients, and the weighted sum of the value rows. `√1024 = 32`, so the scale
  is `2⁻⁵`. Entry (b, q, o) of the result is `∑ k, (exp (s k - mx) / ∑ k', exp (s k' - mx)) · v k o` over the 2048 key rows;
  cut into four blocks of 512 this is what the streamed state gives after four blocks, when every input is a real number.
-/
import proofs.«138919_j53558242181521_2_alg».proof.Proof.Gen.ReferenceIdeal.Read
import proofs.«138919_j53558242181521_2_alg».proof.Proof.Spec

noncomputable section

namespace Cert.Attn

open Idealize.ShloMosaic Idealize.ShloMosaic.ValueIdx Cert.LibFinite Cert.Lib.BlockSum Cert.LibStream
open Cert.ReferenceIdeal Cert.ReferenceIdeal.Gen Cert.ReferenceIdeal.Read

/-! ## Constants -/

theorem ofBits_1024 : Ideal.ofBits .f32 0x44800000#32 = ((1024 : ℝ) : EReal) := by
  simp [Ideal.ofBits, Ideal.ieee, -EReal.coe_mul]; norm_num

theorem ofBits_c32 : c32 = ((1 / 32 : ℝ) : EReal) := by
  simp [c32, Ideal.ofBits, Ideal.ieee, -EReal.coe_mul]; norm_num

theorem isFin_c32 : IsFin c32 := ⟨_, ofBits_c32⟩

theorem isFin_negBig : IsFin negBig := by
  simp [negBig, Ideal.ofBits, Ideal.ieee, -EReal.coe_mul]
  exact isFin_coe _

theorem sqrt_1024 : Real.sqrt 1024 = 32 := by
  rw [show (1024 : ℝ) = 32 * 32 by norm_num]; exact Real.sqrt_mul_self (by norm_num)

/-- A fold of `max` from `-∞` over a nonempty family of real numbers is a real number. -/
theorem isFin_fold_max {ι : Type} (S : Finset ι) (f : ι → EReal) (hf : ∀ i ∈ S, IsFin (f i)) (hne : S.Nonempty) :
    IsFin (S.fold max ⊥ f) := by
  classical
  induction S using Finset.induction_on with
  | empty => exact absurd hne (by simp)
  | insert a S ha ih =>
    rw [Finset.fold_insert ha]
    by_cases hS : S.Nonempty
    · exact (hf a (Finset.mem_insert_self a S)).max (ih (fun i hi => hf i (Finset.mem_insert_of_mem hi)) hS)
    · obtain rfl := Finset.not_nonempty_iff_eq_empty.mp hS
      rw [Finset.fold_empty, max_bot_right]
      exact hf a (Finset.mem_insert_self a _)

section Read

variable (x0 x1 : (⟨S4x2048x1024, .f32⟩ : BufTy).Contents (Elt Ideal)) (x2 : (⟨S3x1024x1024, .f32⟩ : BufTy).Contents (Elt Ideal))

/-! ## The weight matrices -/

theorem w0 (d o : Fin 1024) : val_main_v1 (F := Ideal) x2 (ix2 d o) = x2 (ix3 (0 : Fin 3) d o) := by
  rw [val_main_v1_apply, val_main_v0_apply]
  refine congrArg x2 (funext fun a => Fin.ext ?_)
  have hd := d.isLt; have ho := o.isLt
  match a with
  | ⟨0, _⟩ => rfl
  | ⟨1, _⟩ => show (d.val * 1024 + o.val) / 1024 % 1024 = d.val; omega
  | ⟨2, _⟩ => show (d.val * 1024 + o.val) % 1024 = o.val; omega

theorem w1 (d o : Fin 1024) : val_main_v4 (F := Ideal) x2 (ix2 d o) = x2 (ix3 (1 : Fin 3) d o) := by
  rw [val_main_v4_apply, val_main_v3_apply]
  refine congrArg x2 (funext fun a => Fin.ext ?_)
  have hd := d.isLt; have ho := o.isLt
  match a with
  | ⟨0, _⟩ => rfl
  | ⟨1, _⟩ => show (d.val * 1024 + o.val) / 1024 % 1024 = d.val; omega
  | ⟨2, _⟩ => show (d.val * 1024 + o.val) % 1024 = o.val; omega

theorem w2 (d o : Fin 1024) : val_main_v7 (F := Ideal) x2 (ix2 d o) = x2 (ix3 (2 : Fin 3) d o) := by
  rw [val_main_v7_apply, val_main_v6_apply]
  refine congrArg x2 (funext fun a => Fin.ext ?_)
  have hd := d.isLt; have ho := o.isLt
  match a with
  | ⟨0, _⟩ => rfl
  | ⟨1, _⟩ => show (d.val * 1024 + o.val) / 1024 % 1024 = d.val; omega
  | ⟨2, _⟩ => show (d.val * 1024 + o.val) % 1024 = o.val; omega

/-! ## The projections -/

theorem bIdx_val (b : Fin 4) : bIdx b.val = b := Fin.ext (by show b.val % 4 = b.val; have := b.isLt; omega)

theorem proj0 (b : Fin 4) (s : Fin 2048) (o : Fin 1024) :
    val_main_v2 (F := Ideal) x0 x2 (ix3 b s o) = WP x0 x2 0 b.val s o := by
  rw [val_main_v2_apply]
  unfold WP
  rw [bIdx_val]
  refine Finset.sum_congr rfl fun d _ => ?_
  have el : lidx_main_v2 (ix3 b s o) d = ix3 b s d := funext fun a => by
    match a with
    | ⟨0, _⟩ => rfl
    | ⟨1, _⟩ => rfl
    | ⟨2, _⟩ => rfl
  have er : ridx_main_v2 (ix3 b s o) d = ix2 d o := funext fun a => by
    match a with
    | ⟨0, _⟩ => rfl
    | ⟨1, _⟩ => rfl
  rw [el, er, w0]

theorem proj1 (b : Fin 4) (s : Fin 2048) (o : Fin 1024) :
    val_main_v5 (F := Ideal) x0 x2 (ix3 b s o) = WP x0 x2 1 b.val s o := by
  rw [val_main_v5_apply]
  unfold WP
  rw [bIdx_val]
  refine Finset.sum_congr rfl fun d _ => ?_
  have el : lidx_main_v5 (ix3 b s o) d = ix3 b s d := funext fun a => by
    match a with
    | ⟨0, _⟩ => rfl
    | ⟨1, _⟩ => rfl
    | ⟨2, _⟩ => rfl
  have er : ridx_main_v5 (ix3 b s o) d = ix2 d o := funext fun a => by
    match a with
    | ⟨0, _⟩ => rfl
    | ⟨1, _⟩ => rfl
  rw [el, er, w1]

theorem proj2 (b : Fin 4) (s : Fin 2048) (o : Fin 1024) :
    val_main_v8 (F := Ideal) x1 x2 (ix3 b s o) = WP x1 x2 2 b.val s o := by
  rw [val_main_v8_apply]
  unfold WP
  rw [bIdx_val]
  refine Finset.sum_congr rfl fun d _ => ?_
  have el : lidx_main_v8 (ix3 b s o) d = ix3 b s d := funext fun a => by
    match a with
    | ⟨0, _⟩ => rfl
    | ⟨1, _⟩ => rfl
    | ⟨2, _⟩ => rfl
  have er : ridx_main_v8 (ix3 b s o) d = ix2 d o := funext fun a => by
    match a with
    | ⟨0, _⟩ => rfl
    | ⟨1, _⟩ => rfl
  rw [el, er, w2]

/-! ## The scores -/

/-- `1 / √1024` is the scale `2⁻⁵`. -/
theorem scale_eq (i : S_.Idx) : val_main_v10 (F := Ideal) i = c32 := by
  rw [val_main_v10_apply, val_main_v9_apply, val_main_cst_apply, val_main_cst_0_apply]
  show Ideal.div (Ideal.ofBits .f32 0x3F800000#32) (Ideal.sqrt (Ideal.ofBits .f32 0x44800000#32)) = c32
  rw [ofBits_1024, ofBits_one, ofBits_c32, Ideal.sqrt_coe, if_neg (by norm_num), sqrt_1024,
    Ideal.div_coe (by norm_num : (32 : ℝ) ≠ 0), ← EReal.coe_mul]
  exact congrArg _ (by norm_num)

theorem score_eq (b : Fin 4) (q kk : Fin 2048) :
    val_main_v13 (F := Ideal) x0 x2 (ix3 b q kk) = Sc x0 x2 b.val q kk := by
  rw [val_main_v13_apply, val_main_v12_apply, scale_eq, val_main_v11_apply]
  unfold Sc
  refine congrArg (· * c32) (Finset.sum_congr rfl fun o _ => ?_)
  have el : lidx_main_v11 (ix3 b q kk) o = ix3 b q o := funext fun a => by
    match a with
    | ⟨0, _⟩ => rfl
    | ⟨1, _⟩ => rfl
    | ⟨2, _⟩ => rfl
  have er : ridx_main_v11 (ix3 b q kk) o = ix3 b kk o := funext fun a => by
    match a with
    | ⟨0, _⟩ => rfl
    | ⟨1, _⟩ => rfl
    | ⟨2, _⟩ => rfl
  rw [el, er, proj0, proj1]

/-! ## The row maximum -/

/-- The shift the reference subtracts in row (b, q). -/
def mxRef (b : Fin 4) (q : Fin 2048) : EReal := val_main_v16 (F := Ideal) x0 x2 (ix2 b q)

theorem lift_ref (h : S4x2048x2048.Reduces [2] S4x2048) (b : Fin 4) (q : Fin 2048) (kk : Fin (S4x2048x2048.size 2)) :
    h.lift (ix2 b q) kk = ix3 b q (kk : Fin 2048) := funext fun a => Fin.ext (by
  show h.liftVal (ix2 b q) kk.val a = (ix3 b q (kk : Fin 2048) a).val
  match a with
  | ⟨0, _⟩ => simp [Shape.Reduces.liftVal]
  | ⟨1, _⟩ => simp [Shape.Reduces.liftVal]
  | ⟨2, _⟩ => simp [Shape.Reduces.liftVal])

theorem mx_fin (b : Fin 4) (q : Fin 2048) (hS : ∀ kk, IsFin (Sc x0 x2 b.val q kk)) : IsFin (mxRef x0 x2 b q) := by
  unfold mxRef
  rw [val_main_v16_apply, val_main_v15_apply]
  have hr : S4x2048x2048.Reduces [2] S4x2048 := by decide
  have e14 : val_main_v14 (F := Ideal) x0 x2 (ix2 b q)
      = (Finset.univ : Finset (Fin 2048)).fold max ⊥ (fun kk => Sc x0 x2 b.val q kk) := by
    unfold val_main_v14
    refine (Host.reduce_eq_fold_single FloatOps.maximumf _ _ reducesTo_S4x2048x2048_S4x2048_d2 hr h_S_ (ix2 b q)).trans ?_
    have hb : val_main_cst_1 (F := Ideal) (Shape.Idx.first h_S_) = (⊥ : EReal) := by
      show Ideal.ofBits .f32 0xFF800000#32 = ⊥
      simp [Ideal.ofBits, Ideal.ieee]
    rw [hb]
    exact congrArg (fun f : Fin 2048 → EReal => (Finset.univ : Finset (Fin 2048)).fold max ⊥ f)
      (funext fun kk => (congrArg (val_main_v13 (F := Ideal) x0 x2) (lift_ref hr b q kk)).trans (score_eq x0 x2 b q kk))
  rw [e14]
  have hbot : val_main_cst_2 (F := Ideal) (idx_main_v15 (ix2 b q)) = (⊥ : EReal) := by
    show Ideal.ofBits .f32 0xFF800000#32 = ⊥
    simp [Ideal.ofBits, Ideal.ieee]
  rw [hbot]
  show IsFin (max ⊥ _)
  rw [max_bot_left]
  exact isFin_fold_max _ _ (fun kk _ => hS kk) Finset.univ_nonempty

/-! ## The weights, their row sums, and the result -/

theorem e20 (b : Fin 4) (q kk : Fin 2048) :
    val_main_v20 (F := Ideal) x0 x2 (ix3 b q kk) = Ideal.exp (Sc x0 x2 b.val q kk - mxRef x0 x2 b q) := by
  rw [val_main_v20_apply, val_main_v19_apply, score_eq, val_main_v18_apply, val_main_v17_apply]
  have ei : idx_main_v17 (idx_main_v18 (ix3 b q kk)) = ix2 b q := funext fun a => by
    match a with
    | ⟨0, _⟩ => rfl
    | ⟨1, _⟩ => rfl
  rw [ei]
  rfl

theorem e23 (b : Fin 4) (q kk : Fin 2048) :
    val_main_v23 (F := Ideal) x0 x2 (ix3 b q kk)
      = ∑ kk' : Fin 2048, Ideal.exp (Sc x0 x2 b.val q kk' - mxRef x0 x2 b q) := by
  rw [val_main_v23_apply, val_main_v22_apply]
  have ei : idx_main_v22 (idx_main_v23 (ix3 b q kk)) = ix2 b q := funext fun a => by
    match a with
    | ⟨0, _⟩ => rfl
    | ⟨1, _⟩ => rfl
  rw [ei, val_main_v21_apply]
  have hz : val_main_cst_3 (F := Ideal) (Shape.Idx.first h_S_) = (0 : EReal) := by
    show Ideal.ofBits .f32 0x00000000#32 = 0
    exact ofBits_zero
  rw [hz, zero_add]
  refine Finset.sum_congr rfl fun k _ => ?_
  have ek : idx_main_v21 (ix2 b q) k = ix3 b q k := funext fun a => by
    match a with
    | ⟨0, _⟩ => rfl
    | ⟨1, _⟩ => rfl
    | ⟨2, _⟩ => rfl
  rw [ek, e20]

/-- The reference at entry (b, q, o). -/
theorem ref_apply (b : Fin 4) (q : Fin 2048) (o : Fin 1024) :
    val_main_v25 (F := Ideal) x0 x1 x2 (ix3 b q o)
      = ∑ kk : Fin 2048, Ideal.div (Ideal.exp (Sc x0 x2 b.val q kk - mxRef x0 x2 b q))
          (∑ kk' : Fin 2048, Ideal.exp (Sc x0 x2 b.val q kk' - mxRef x0 x2 b q)) * WP x1 x2 2 b.val kk o := by
  rw [val_main_v25_apply]
  refine Finset.sum_congr rfl fun kk _ => ?_
  have el : lidx_main_v25 (ix3 b q o) kk = ix3 b q kk := funext fun a => by
    match a with
    | ⟨0, _⟩ => rfl
    | ⟨1, _⟩ => rfl
    | ⟨2, _⟩ => rfl
  have er : ridx_main_v25 (ix3 b q o) kk = ix3 b kk o := funext fun a => by
    match a with
    | ⟨0, _⟩ => rfl
    | ⟨1, _⟩ => rfl
    | ⟨2, _⟩ => rfl
  rw [el, er, proj2, val_main_v24_apply, e20, e23]
  rfl

/-- The reference is the streamed form, when every input is a real number. -/
theorem ref_eq_G (h0 : ∀ i, IsFin (x0 i)) (h1 : ∀ i, IsFin (x1 i)) (h2 : ∀ i, IsFin (x2 i)) :
    val_main_v25 (F := Ideal) x0 x1 x2 = G x0 x1 x2 := by
  funext i
  obtain ⟨b, q, o, rfl⟩ : ∃ (b : Fin 4) (q : Fin 2048) (o : Fin 1024), i = ix3 b q o := ⟨i 0, i 1, i 2, eq_ix3 i⟩
  have hWP0 : ∀ (w : Fin 3) (n : ℕ) (s : Fin 2048) (e : Fin 1024), IsFin (WP x0 x2 w n s e) := fun w n s e =>
    IsFin.sum _ _ fun d _ => (h0 _).mul (h2 _)
  have hWP1 : ∀ (w : Fin 3) (n : ℕ) (s : Fin 2048) (e : Fin 1024), IsFin (WP x1 x2 w n s e) := fun w n s e =>
    IsFin.sum _ _ fun d _ => (h1 _).mul (h2 _)
  have hSc : ∀ (n : ℕ) (s kk : Fin 2048), IsFin (Sc x0 x2 n s kk) := fun n s kk =>
    (IsFin.sum _ _ fun e _ => (hWP0 0 n s e).mul (hWP0 1 n kk e)).mul isFin_c32
  have hmx : IsFin (mxRef x0 x2 b q) := mx_fin x0 x2 b q (fun kk => hSc _ _ kk)
  have key := stream_eq_softmax negBig (mxRef x0 x2 b q) (sBlk x0 x2 b.val q) (vBlk x1 x2 b.val o) 4 (by norm_num)
    isFin_negBig hmx (fun j c => hSc _ _ _) (fun j c => hWP1 _ _ _ _)
  simp only [Finset.sum_range] at key
  have hrow : ∀ (a : Fin 4) (c : Fin 512) (h : a.val * 512 + c.val < 2048),
      (⟨a.val * 512 + c.val, h⟩ : Fin 2048) = rowOf a.val c := fun a c h => Fin.ext (by
    show a.val * 512 + c.val = (512 * a.val + c.val) % 2048
    have := a.isLt; have := c.isLt; omega)
  have inner : ∑ kk' : Fin 2048, Ideal.exp (Sc x0 x2 b.val q kk' - mxRef x0 x2 b q)
      = ∑ a : Fin 4, ∑ c : Fin 512, Ideal.exp (sBlk x0 x2 b.val q a.val c - mxRef x0 x2 b q) := by
    rw [sum_fin_blocks_of_eq 4 512 rfl]
    refine Finset.sum_congr rfl fun a _ => Finset.sum_congr rfl fun c _ => ?_
    rw [hrow]; rfl
  rw [ref_apply, inner, sum_fin_blocks_of_eq 4 512 rfl]
  unfold G
  show _ = aSt negBig (sBlk x0 x2 b.val q) (vBlk x1 x2 b.val o) 4
      * Ideal.div (Ideal.ofBits .f32 0x3F800000#32) (lSt negBig (sBlk x0 x2 b.val q) 4)
  rw [ofBits_one, key]
  refine Finset.sum_congr rfl fun a _ => Finset.sum_congr rfl fun c _ => ?_
  rw [hrow]; rfl

end Read

end Cert.Attn

end
-- ==== Proof.Finite.lean ====
/-
  The precondition, read: every entry of the three argument arrays is a real number.

  The precondition is the conjunction of three tests, one per array: the "and" over all entries of "|x| < +∞". A
  conjunction that is 1 has every conjunct 1; an "and" over all entries that is 1 has every entry's test 1; and an
  extended real whose absolute value is below +∞ is neither infinity.
-/
import proofs.«138919_j53558242181521_2_alg».proof.Pre_finite_inputs
import proofs.«138919_j53558242181521_2_alg».proof.Proof.LibFinite
import Idealize.ShloMosaic.PureOps.Ideal.Laws
import Idealize.ShloMosaic.Lib.ReduceAll
import Idealize.ShloMosaic.Lib.Affine
import Idealize.ShloMosaic.Lib.ValueIdx

noncomputable section

namespace Cert.Attn

open Idealize.ShloMosaic Cert.LibFinite

instance : Subsingleton Cert.Pre_finite_inputs.S_.Idx := ⟨fun a b => funext fun d => d.elim0⟩

/-- The pattern of `+∞`. -/
theorem ofBits_pos_inf : Ideal.ofBits .f32 0x7F800000#32 = (⊤ : EReal) := by
  simp [Ideal.ofBits, Ideal.ieee]

/-- An extended real whose absolute value tests below `+∞` is a real number. -/
theorem isFin_of_abs_lt (x : EReal)
    (h : FloatOps.cmpf (F := Ideal) (φ := .f32) .olt (FloatOps.absf (F := Ideal) (φ := .f32) x) (Ideal.ofBits .f32 0x7F800000#32) = 1#1) :
    IsFin x := by
  rw [Ideal.cmpf_def, Ideal.absf_def, ofBits_pos_inf] at h
  induction x using EReal.rec with
  | bot => exfalso; simp [Ideal.cmp] at h
  | coe r => exact ⟨r, rfl⟩
  | top => exfalso; simp [Ideal.cmp] at h

/-- Under the precondition every entry of each argument array is a real number. -/
theorem finite_of_pre [Cert.Pre_finite_inputs.Facts]
    (a0 a1 : FVec Ideal Cert.Pre_finite_inputs.S4x2048x1024 .f32) (a2 : FVec Ideal Cert.Pre_finite_inputs.S3x1024x1024 .f32)
    (h : Cert.Pre_finite_inputs.fn (F := Ideal) a0 a1 a2 = fun _ => 1#1) :
    (∀ i, IsFin (a0 i)) ∧ (∀ i, IsFin (a1 i)) ∧ (∀ i, IsFin (a2 i)) := by
  have h0 := congrFun h ValueIdx.ix0
  dsimp only [Cert.Pre_finite_inputs.fn] at h0
  obtain ⟨h01, h2⟩ := IntOp.andi_eq_one.mp h0
  obtain ⟨h0', h1'⟩ := IntOp.andi_eq_one.mp h01
  exact ⟨fun i => isFin_of_abs_lt _ (Host.reduce_andi_all _ _ _ _ _ h0' i),
    fun i => isFin_of_abs_lt _ (Host.reduce_andi_all _ _ _ _ _ h1' i),
    fun i => isFin_of_abs_lt _ (Host.reduce_andi_all _ _ _ _ _ h2 i)⟩

end Cert.Attn

end
-- ==== Proof.lean ====
/-
  Fused projection + attention against the two-pass reference, over the extended reals.

  The kernel projects a batch element's rows by three weight matrices once (into three caches), then for each tile of
  512 query rows sweeps the 2048 key rows in four blocks, carrying for every query row a shift, a normaliser and a
  weighted sum of value rows, and writes `weighted sum · (1 / normaliser)` at the end of the sweep. The reference forms
  all scores, subtracts each row's largest, exponentiates, divides by the row sum and multiplies by the value rows.

  On real inputs the two agree: after any number of blocks the carried normaliser is `∑ exp (s - m)` and the carried
  weighted sum `∑ exp (s - m) · v` over the keys seen, whatever real number the shift `m` is, so their quotient is
  `∑ exp s · v / ∑ exp s` — the reference's quotient too, whose own shift (the row's largest score) cancels the same way.
  The kernel's scale `2⁻⁵` is the reference's `1 / √1024`. Finiteness of the inputs (the precondition) is what makes
  every quantity a real number, so that these cancellations are valid.

  The frames are the generated ones; the reference's frame is its generated run with the result dropped. The rewrite
  ledger between the kernel and its idealization is empty.
-/
import proofs.«138919_j53558242181521_2_alg».proof.Defs
import proofs.«138919_j53558242181521_2_alg».proof.Proof.Gen.Kernel
import proofs.«138919_j53558242181521_2_alg».proof.Proof.Gen.Kernel.Skeleton
import proofs.«138919_j53558242181521_2_alg».proof.Proof.Gen.Kernel.Launch
import proofs.«138919_j53558242181521_2_alg».proof.Proof.Gen.Kernel.Points
import proofs.«138919_j53558242181521_2_alg».proof.Proof.Gen.Kernel.Frame
import proofs.«138919_j53558242181521_2_alg».proof.Proof.Gen.KernelIdeal
import proofs.«138919_j53558242181521_2_alg».proof.Proof.Gen.KernelIdeal.Skeleton
import proofs.«138919_j53558242181521_2_alg».proof.Proof.Gen.KernelIdeal.Launch
import proofs.«138919_j53558242181521_2_alg».proof.Proof.Gen.KernelIdeal.Points
import proofs.«138919_j53558242181521_2_alg».proof.Proof.Gen.KernelIdeal.Frame
import proofs.«138919_j53558242181521_2_alg».proof.Proof.Gen.ReferenceIdeal
import proofs.«138919_j53558242181521_2_alg».proof.Proof.Gen.Pre_finite_inputs
import proofs.«138919_j53558242181521_2_alg».proof.Proof.Gen.KernelIdeal.Value
import proofs.«138919_j53558242181521_2_alg».proof.Proof.Gen.ReferenceIdeal.Run
import proofs.«138919_j53558242181521_2_alg».proof.Proof.Gen.ReferenceIdeal.Read
import proofs.«138919_j53558242181521_2_alg».proof.Proof.KernelValue
import proofs.«138919_j53558242181521_2_alg».proof.Proof.RefValue
import proofs.«138919_j53558242181521_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the streamed form `G` of the arguments: the kernel by its run, the reference because its
    two-pass quotient is that form on real inputs. -/
theorem algebraic : Cert.algebraic_KernelIdeal_ReferenceIdeal := by
  intro m ρ m' ρ' hpre hagree
  refine ⟨_, Cert.Attn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2]
  obtain ⟨f0, f1, f2⟩ := Cert.Attn.finite_of_pre _ _ _ (hpre c)
  exact Cert.Attn.ref_eq_G _ _ _ f0 f1 f2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
